-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x512x1024 : Shape := ⟨3, ![1, 512, 1024]⟩
abbrev S1x2048x1024 : Shape := ⟨3, ![1, 2048, 1024]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 26
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S8192x3072, .bf16⟩
  | .hbm, ⟨18, _⟩ => ⟨S4x2048x3072, .bf16⟩
  | .hbm, ⟨19, _⟩ => ⟨S4x2048x1024, .bf16⟩
  | .hbm, ⟨20, _⟩ => ⟨S8192x1024, .bf16⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S8192x1024, .f32⟩
  | .hbm, ⟨25, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x512x1024_S1x512x64_0_0_0 : ∀ a, (![0, 0, 0] : Fin 3 → Nat) a + S1x512x64.size a ≤ S1x512x1024.size a
  h_S1x512x64 : 0 < S1x512x64.numel
  shapeCasts_S1x512x64_S512x64 : S1x512x64.ShapeCasts S512x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x1024_S1x512x64_0_0_0 : (Rect.unit (s := S1x512x1024) ![0, 0, 0] S1x512x64.size inb_S1x512x1024_S1x512x64_0_0_0).PackedRows (EltTy.packing .bf16)
  inb_S1x512x1024_S1x512x64_0_0_64 : ∀ a, (![0, 0, 64] : Fin 3 → Nat) a + S1x512x64.size a ≤ S1x512x1024.size a
  inb_S1x2048x1024_S1x2048x64_0_0_64 : ∀ a, (![0, 0, 64] : Fin 3 → Nat) a + S1x2048x64.size a ≤ S1x2048x1024.size a
  packedbf16_S1x512x1024_S1x512x64_0_0_64 : (Rect.unit (s := S1x512x1024) ![0, 0, 64] S1x512x64.size inb_S1x512x1024_S1x512x64_0_0_64).PackedRows (EltTy.packing .bf16)
  inb_S1x512x1024_S1x512x64_0_0_128 : ∀ a, (![0, 0, 128] : Fin 3 → Nat) a + S1x512x64.size a ≤ S1x512x1024.size a
  inb_S1x2048x1024_S1x2048x64_0_0_128 : ∀ a, (![0, 0, 128] : Fin 3 → Nat) a + S1x2048x64.size a ≤ S1x2048x1024.size a
  packedbf16_S1x512x1024_S1x512x64_0_0_128 : (Rect.unit (s := S1x512x1024) ![0, 0, 128] S1x512x64.size inb_S1x512x1024_S1x512x64_0_0_128).PackedRows (EltTy.packing .bf16)
  inb_S1x512x1024_S1x512x64_0_0_192 : ∀ a, (![0, 0, 192] : Fin 3 → Nat) a + S1x512x64.size a ≤ S1x512x1024.size a
  inb_S1x2048x1024_S1x2048x64_0_0_192 : ∀ a, (![0, 0, 192] : Fin 3 → Nat) a + S1x2048x64.size a ≤ S1x2048x1024.size a
  packedbf16_S1x512x1024_S1x512x64_0_0_192 : (Rect.unit (s := S1x512x1024) ![0, 0, 192] S1x512x64.size inb_S1x512x1024_S1x512x64_0_0_192).PackedRows (EltTy.packing .bf16)
  inb_S1x512x1024_S1x512x64_0_0_256 : ∀ a, (![0, 0, 256] : Fin 3 → Nat) a + S1x512x64.size a ≤ S1x512x1024.size a
  inb_S1x2048x1024_S1x2048x64_0_0_256 : ∀ a, (![0, 0, 256] : Fin 3 → Nat) a + S1x2048x64.size a ≤ S1x2048x1024.size a
  packedbf16_S1x512x1024_S1x512x64_0_0_256 : (Rect.unit (s := S1x512x1024) ![0, 0, 256] S1x512x64.size inb_S1x512x1024_S1x512x64_0_0_256).PackedRows (EltTy.packing .bf16)
  inb_S1x512x1024_S1x512x64_0_0_320 : ∀ a, (![0, 0, 320] : Fin 3 → Nat) a + S1x512x64.size a ≤ S1x512x1024.size a
  inb_S1x2048x1024_S1x2048x64_0_0_320 : ∀ a, (![0, 0, 320] : Fin 3 → Nat) a + S1x2048x64.size a ≤ S1x2048x1024.size a
  packedbf16_S1x512x1024_S1x512x64_0_0_320 : (Rect.unit (s := S1x512x1024) ![0, 0, 320] S1x512x64.size inb_S1x512x1024_S1x512x64_0_0_320).PackedRows (EltTy.packing .bf16)
  inb_S1x512x1024_S1x512x64_0_0_384 : ∀ a, (![0, 0, 384] : Fin 3 → Nat) a + S1x512x64.size a ≤ S1x512x1024.size a
  inb_S1x2048x1024_S1x2048x64_0_0_384 : ∀ a, (![0, 0, 384] : Fin 3 → Nat) a + S1x2048x64.size a ≤ S1x2048x1024.size a
  packedbf16_S1x512x1024_S1x512x64_0_0_384 : (Rect.unit (s := S1x512x1024) ![0, 0, 384] S1x512x64.size inb_S1x512x1024_S1x512x64_0_0_384).PackedRows (EltTy.packing .bf16)
  inb_S1x512x1024_S1x512x64_0_0_448 : ∀ a, (![0, 0, 448] : Fin 3 → Nat) a + S1x512x64.size a ≤ S1x512x1024.size a
  inb_S1x2048x1024_S1x2048x64_0_0_448 : ∀ a, (![0, 0, 448] : Fin 3 → Nat) a + S1x2048x64.size a ≤ S1x2048x1024.size a
  packedbf16_S1x512x1024_S1x512x64_0_0_448 : (Rect.unit (s := S1x512x1024) ![0, 0, 448] S1x512x64.size inb_S1x512x1024_S1x512x64_0_0_448).PackedRows (EltTy.packing .bf16)
  inb_S1x512x1024_S1x512x64_0_0_512 : ∀ a, (![0, 0, 512] : Fin 3 → Nat) a + S1x512x64.size a ≤ S1x512x1024.size a
  inb_S1x2048x1024_S1x2048x64_0_0_512 : ∀ a, (![0, 0, 512] : Fin 3 → Nat) a + S1x2048x64.size a ≤ S1x2048x1024.size a
  packedbf16_S1x512x1024_S1x512x64_0_0_512 : (Rect.unit (s := S1x512x1024) ![0, 0, 512] S1x512x64.size inb_S1x512x1024_S1x512x64_0_0_512).PackedRows (EltTy.packing .bf16)
  inb_S1x512x1024_S1x512x64_0_0_576 : ∀ a, (![0, 0, 576] : Fin 3 → Nat) a + S1x512x64.size a ≤ S1x512x1024.size a
  inb_S1x2048x1024_S1x2048x64_0_0_576 : ∀ a, (![0, 0, 576] : Fin 3 → Nat) a + S1x2048x64.size a ≤ S1x2048x1024.size a
  packedbf16_S1x512x1024_S1x512x64_0_0_576 : (Rect.unit (s := S1x512x1024) ![0, 0, 576] S1x512x64.size inb_S1x512x1024_S1x512x64_0_0_576).PackedRows (EltTy.packing .bf16)
  inb_S1x512x1024_S1x512x64_0_0_640 : ∀ a, (![0, 0, 640] : Fin 3 → Nat) a + S1x512x64.size a ≤ S1x512x1024.size a
  inb_S1x2048x1024_S1x2048x64_0_0_640 : ∀ a, (![0, 0, 640] : Fin 3 → Nat) a + S1x2048x64.size a ≤ S1x2048x1024.size a
  packedbf16_S1x512x1024_S1x512x64_0_0_640 : (Rect.unit (s := S1x512x1024) ![0, 0, 640] S1x512x64.size inb_S1x512x1024_S1x512x64_0_0_640).PackedRows (EltTy.packing .bf16)
  inb_S1x512x1024_S1x512x64_0_0_704 : ∀ a, (![0, 0, 704] : Fin 3 → Nat) a + S1x512x64.size a ≤ S1x512x1024.size a
  inb_S1x2048x1024_S1x2048x64_0_0_704 : ∀ a, (![0, 0, 704] : Fin 3 → Nat) a + S1x2048x64.size a ≤ S1x2048x1024.size a
  packedbf16_S1x512x1024_S1x512x64_0_0_704 : (Rect.unit (s := S1x512x1024) ![0, 0, 704] S1x512x64.size inb_S1x512x1024_S1x512x64_0_0_704).PackedRows (EltTy.packing .bf16)
  inb_S1x512x1024_S1x512x64_0_0_768 : ∀ a, (![0, 0, 768] : Fin 3 → Nat) a + S1x512x64.size a ≤ S1x512x1024.size a
  inb_S1x2048x1024_S1x2048x64_0_0_768 : ∀ a, (![0, 0, 768] : Fin 3 → Nat) a + S1x2048x64.size a ≤ S1x2048x1024.size a
  packedbf16_S1x512x1024_S1x512x64_0_0_768 : (Rect.unit (s := S1x512x1024) ![0, 0, 768] S1x512x64.size inb_S1x512x1024_S1x512x64_0_0_768).PackedRows (EltTy.packing .bf16)
  inb_S1x512x1024_S1x512x64_0_0_832 : ∀ a, (![0, 0, 832] : Fin 3 → Nat) a + S1x512x64.size a ≤ S1x512x1024.size a
  inb_S1x2048x1024_S1x2048x64_0_0_832 : ∀ a, (![0, 0, 832] : Fin 3 → Nat) a + S1x2048x64.size a ≤ S1x2048x1024.size a
  packedbf16_S1x512x1024_S1x512x64_0_0_832 : (Rect.unit (s := S1x512x1024) ![0, 0, 832] S1x512x64.size inb_S1x512x1024_S1x512x64_0_0_832).PackedRows (EltTy.packing .bf16)
  inb_S1x512x1024_S1x512x64_0_0_896 : ∀ a, (![0, 0, 896] : Fin 3 → Nat) a + S1x512x64.size a ≤ S1x512x1024.size a
  inb_S1x2048x1024_S1x2048x64_0_0_896 : ∀ a, (![0, 0, 896] : Fin 3 → Nat) a + S1x2048x64.size a ≤ S1x2048x1024.size a
  packedbf16_S1x512x1024_S1x512x64_0_0_896 : (Rect.unit (s := S1x512x1024) ![0, 0, 896] S1x512x64.size inb_S1x512x1024_S1x512x64_0_0_896).PackedRows (EltTy.packing .bf16)
  inb_S1x512x1024_S1x512x64_0_0_960 : ∀ a, (![0, 0, 960] : Fin 3 → Nat) a + S1x512x64.size a ≤ S1x512x1024.size a
  inb_S1x2048x1024_S1x2048x64_0_0_960 : ∀ a, (![0, 0, 960] : Fin 3 → Nat) a + S1x2048x64.size a ≤ S1x2048x1024.size a
  packedbf16_S1x512x1024_S1x512x64_0_0_960 : (Rect.unit (s := S1x512x1024) ![0, 0, 960] S1x512x64.size inb_S1x512x1024_S1x512x64_0_0_960).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .bf16 = 32 ∨ (Rect.block (s := S4x2048x1024) S1x512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Region0.lean ====
/-
  Region 0 of the program: the linear layer  out = a · w + bias  on a grid of 16 row tiles.
  At each grid point the body reads a 512-row tile of the activations, the whole weight matrix and the bias row,
  and writes the 512-row tile of the product plus the bias (rounded to the output's format). This module states,
  for any contents `V` of the TensorCore's buffers at the region's entry: each window's block at a point, what
  the body leaves in the output window's buffer as a function of the three input blocks, the body's triple, the
  pipeline's proof data and the body obligation at every point. Generic in the float instance.
-/
import proofs.«107256_j17025250361728_2_alg».proof.Proof.Gen.KernelIdeal.Launch
import proofs.«107256_j17025250361728_2_alg».proof.Proof.Gen.KernelIdeal.Skeleton
import proofs.«107256_j17025250361728_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there: an unfetched window's block index has not moved, so the block it still holds is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there: an unfetched window's block index has not moved, so the block it still holds is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there: an unfetched window's block index has not moved, so the block it still holds is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store take the whole staging buffer -/

abbrev rA0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0
abbrev rO0 : Rect S512x3072 := Rect.unit (s := S512x3072) ![0, 0] S512x3072.size inb_S512x3072_S512x3072_0_0

/-! ## What the body leaves in the output window's buffer -/

/-- The output tile after the body: its one store, of the product of the activation tile and the weights plus the
    bias row, as a function of the three input blocks. -/
def out0_3 (x0 : Vec F S512x1024 .f32) (x1 : Vec F S1024x3072 .bf16) (x2 : Vec F S1x3072 .f32) : Vec F S512x3072 .bf16 :=
  View.canon [⟨rO0, k0_pay1 (View.ld x0 rA0) (View.ld x1 rW0) (View.ld x2 rB0)⟩]

/-- The one store covers the whole tile. -/
theorem cover0_3 (p0 : Vec F S512x3072 .bf16) (y : S512x3072.Idx) :
    ∃ pc ∈ ([⟨rO0, p0⟩] : List (View.Piece (Elt F) S512x3072 .bf16)), y ∈ pc.1.set :=
  View.cover_of_tiled [⟨rO0, p0⟩] S512x3072.size (by rfl) y

/-! ## The body's triple -/

set_option maxHeartbeats 1000000 in
/-- The body on whole staging buffers, the inputs' at contents `x0 x1 x2` and the output's at anything, runs to the
    continuation with the inputs' as they were and the output's at `out0_3` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer still at its block and the output's at `out0_3` of the input blocks; the invariant is
    the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Region1Body.lean ====
/-
  The body half of the frame proof for the attention kernel `cc1__attn_kernel` (the second of the
  program's three pallas_calls), at any float instance `F`.

  At one grid point the body sees the query window's block `x0 : [1, 512, 1024]`, the key window's
  block `x1 : [1, 2048, 1024]` and the value window's block `x2 : [1, 2048, 1024]`, and fills the
  output window's block `[1, 512, 1024]` head by head: for each of the 16 heads `h` it loads columns
  `64 h … 64 h + 63` of the three inputs, computes `softmax(q kᵀ / 4) v` for that head, and stores the
  `[1, 512, 64]` result into the same columns of the output. The sixteen stores are through literal
  rectangles that tile the output block, so what the body leaves there is a closed function of the
  three input blocks: the canonical contents of the sixteen pieces (`out1_3`). The triple
  `sound_kernel1` says exactly that: from the three inputs at read contents `x0 x1 x2` and the output
  at anything, the body runs to the inputs unchanged and the output at `out1_3 x0 x1 x2`.
-/
import proofs.«107256_j17025250361728_2_alg».proof.Proof.Gen.KernelIdeal.Launch
import proofs.«107256_j17025250361728_2_alg».proof.Proof.Gen.KernelIdeal.Skeleton
import proofs.«107256_j17025250361728_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Head `h` (of 16) occupies columns `64 h … 64 h + 63` of the last axis. The query block and the output
block have the same shape, so one family of rectangles serves the query loads and the output stores;
the key block and the value block share the other family. -/

abbrev r1_q0 : Rect S1x512x1024 := Rect.unit (s := S1x512x1024) ![0, 0, 0] S1x512x64.size inb_S1x512x1024_S1x512x64_0_0_0
abbrev r1_q1 : Rect S1x512x1024 := Rect.unit (s := S1x512x1024) ![0, 0, 64] S1x512x64.size inb_S1x512x1024_S1x512x64_0_0_64
abbrev r1_q2 : Rect S1x512x1024 := Rect.unit (s := S1x512x1024) ![0, 0, 128] S1x512x64.size inb_S1x512x1024_S1x512x64_0_0_128
abbrev r1_q3 : Rect S1x512x1024 := Rect.unit (s := S1x512x1024) ![0, 0, 192] S1x512x64.size inb_S1x512x1024_S1x512x64_0_0_192
abbrev r1_q4 : Rect S1x512x1024 := Rect.unit (s := S1x512x1024) ![0, 0, 256] S1x512x64.size inb_S1x512x1024_S1x512x64_0_0_256
abbrev r1_q5 : Rect S1x512x1024 := Rect.unit (s := S1x512x1024) ![0, 0, 320] S1x512x64.size inb_S1x512x1024_S1x512x64_0_0_320
abbrev r1_q6 : Rect S1x512x1024 := Rect.unit (s := S1x512x1024) ![0, 0, 384] S1x512x64.size inb_S1x512x1024_S1x512x64_0_0_384
abbrev r1_q7 : Rect S1x512x1024 := Rect.unit (s := S1x512x1024) ![0, 0, 448] S1x512x64.size inb_S1x512x1024_S1x512x64_0_0_448
abbrev r1_q8 : Rect S1x512x1024 := Rect.unit (s := S1x512x1024) ![0, 0, 512] S1x512x64.size inb_S1x512x1024_S1x512x64_0_0_512
abbrev r1_q9 : Rect S1x512x1024 := Rect.unit (s := S1x512x1024) ![0, 0, 576] S1x512x64.size inb_S1x512x1024_S1x512x64_0_0_576
abbrev r1_q10 : Rect S1x512x1024 := Rect.unit (s := S1x512x1024) ![0, 0, 640] S1x512x64.size inb_S1x512x1024_S1x512x64_0_0_640
abbrev r1_q11 : Rect S1x512x1024 := Rect.unit (s := S1x512x1024) ![0, 0, 704] S1x512x64.size inb_S1x512x1024_S1x512x64_0_0_704
abbrev r1_q12 : Rect S1x512x1024 := Rect.unit (s := S1x512x1024) ![0, 0, 768] S1x512x64.size inb_S1x512x1024_S1x512x64_0_0_768
abbrev r1_q13 : Rect S1x512x1024 := Rect.unit (s := S1x512x1024) ![0, 0, 832] S1x512x64.size inb_S1x512x1024_S1x512x64_0_0_832
abbrev r1_q14 : Rect S1x512x1024 := Rect.unit (s := S1x512x1024) ![0, 0, 896] S1x512x64.size inb_S1x512x1024_S1x512x64_0_0_896
abbrev r1_q15 : Rect S1x512x1024 := Rect.unit (s := S1x512x1024) ![0, 0, 960] S1x512x64.size inb_S1x512x1024_S1x512x64_0_0_960

abbrev r1_k0 : Rect S1x2048x1024 := Rect.unit (s := S1x2048x1024) ![0, 0, 0] S1x2048x64.size inb_S1x2048x1024_S1x2048x64_0_0_0
abbrev r1_k1 : Rect S1x2048x1024 := Rect.unit (s := S1x2048x1024) ![0, 0, 64] S1x2048x64.size inb_S1x2048x1024_S1x2048x64_0_0_64
abbrev r1_k2 : Rect S1x2048x1024 := Rect.unit (s := S1x2048x1024) ![0, 0, 128] S1x2048x64.size inb_S1x2048x1024_S1x2048x64_0_0_128
abbrev r1_k3 : Rect S1x2048x1024 := Rect.unit (s := S1x2048x1024) ![0, 0, 192] S1x2048x64.size inb_S1x2048x1024_S1x2048x64_0_0_192
abbrev r1_k4 : Rect S1x2048x1024 := Rect.unit (s := S1x2048x1024) ![0, 0, 256] S1x2048x64.size inb_S1x2048x1024_S1x2048x64_0_0_256
abbrev r1_k5 : Rect S1x2048x1024 := Rect.unit (s := S1x2048x1024) ![0, 0, 320] S1x2048x64.size inb_S1x2048x1024_S1x2048x64_0_0_320
abbrev r1_k6 : Rect S1x2048x1024 := Rect.unit (s := S1x2048x1024) ![0, 0, 384] S1x2048x64.size inb_S1x2048x1024_S1x2048x64_0_0_384
abbrev r1_k7 : Rect S1x2048x1024 := Rect.unit (s := S1x2048x1024) ![0, 0, 448] S1x2048x64.size inb_S1x2048x1024_S1x2048x64_0_0_448
abbrev r1_k8 : Rect S1x2048x1024 := Rect.unit (s := S1x2048x1024) ![0, 0, 512] S1x2048x64.size inb_S1x2048x1024_S1x2048x64_0_0_512
abbrev r1_k9 : Rect S1x2048x1024 := Rect.unit (s := S1x2048x1024) ![0, 0, 576] S1x2048x64.size inb_S1x2048x1024_S1x2048x64_0_0_576
abbrev r1_k10 : Rect S1x2048x1024 := Rect.unit (s := S1x2048x1024) ![0, 0, 640] S1x2048x64.size inb_S1x2048x1024_S1x2048x64_0_0_640
abbrev r1_k11 : Rect S1x2048x1024 := Rect.unit (s := S1x2048x1024) ![0, 0, 704] S1x2048x64.size inb_S1x2048x1024_S1x2048x64_0_0_704
abbrev r1_k12 : Rect S1x2048x1024 := Rect.unit (s := S1x2048x1024) ![0, 0, 768] S1x2048x64.size inb_S1x2048x1024_S1x2048x64_0_0_768
abbrev r1_k13 : Rect S1x2048x1024 := Rect.unit (s := S1x2048x1024) ![0, 0, 832] S1x2048x64.size inb_S1x2048x1024_S1x2048x64_0_0_832
abbrev r1_k14 : Rect S1x2048x1024 := Rect.unit (s := S1x2048x1024) ![0, 0, 896] S1x2048x64.size inb_S1x2048x1024_S1x2048x64_0_0_896
abbrev r1_k15 : Rect S1x2048x1024 := Rect.unit (s := S1x2048x1024) ![0, 0, 960] S1x2048x64.size inb_S1x2048x1024_S1x2048x64_0_0_960

/-! ## What the body leaves in the output window's buffer -/

/-- The output window's staging buffer after the body, from the three input windows' blocks (`x0` the
    query block, `x1` the key block, `x2` the value block): its 16 stores as pieces, LAST FIRST. Head
    `h`'s piece is the attention of query columns `64 h …` against key columns `64 h …` applied to value
    columns `64 h …`, written to output columns `64 h …`; the payloads are the skeleton's, each part's
    returned values substituted into the part that stores them. -/
def out1_3 (x0 : Vec F S1x512x1024 .bf16) (x1 x2 : Vec F S1x2048x1024 .bf16) : Vec F S1x512x1024 .bf16 :=
  View.canon [
    ⟨r1_q15, k1_pay1 (k1_pay36 (View.ld x0 r1_q15)) (k1_pay37 (View.ld x1 r1_k15)) (View.ld x2 r1_k15)⟩,
    ⟨r1_q14, k1_pay35 (View.ld x0 r1_q14) (View.ld x1 r1_k14) (View.ld x2 r1_k14)⟩,
    ⟨r1_q13, k1_pay34 (k1_pay33 (View.ld x0 r1_q13) (View.ld x1 r1_k13) (View.ld x2 r1_k13))⟩,
    ⟨r1_q12, k1_pay32 (k1_pay30 (View.ld x2 r1_k12)) (k1_pay31 (View.ld x0 r1_q12) (View.ld x1 r1_k12))⟩,
    ⟨r1_q11, k1_pay29 (k1_pay28 (View.ld x0 r1_q11)) (View.ld x1 r1_k11) (View.ld x2 r1_k11)⟩,
    ⟨r1_q10, k1_pay27 (View.ld x0 r1_q10) (View.ld x1 r1_k10) (View.ld x2 r1_k10)⟩,
    ⟨r1_q9, k1_pay26 (k1_pay23 (View.ld x2 r1_k9)) (k1_pay24 (View.ld x0 r1_q9) (View.ld x1 r1_k9)) (k1_pay25 (View.ld x0 r1_q9) (View.ld x1 r1_k9))⟩,
    ⟨r1_q8, k1_pay22 (k1_pay20 (View.ld x0 r1_q8)) (k1_pay21 (View.ld x1 r1_k8)) (View.ld x2 r1_k8)⟩,
    ⟨r1_q7, k1_pay19 (View.ld x0 r1_q7) (View.ld x1 r1_k7) (View.ld x2 r1_k7)⟩,
    ⟨r1_q6, k1_pay18 (k1_pay17 (View.ld x0 r1_q6) (View.ld x1 r1_k6) (View.ld x2 r1_k6))⟩,
    ⟨r1_q5, k1_pay16 (k1_pay13 (View.ld x2 r1_k5)) (k1_pay14 (View.ld x0 r1_q5) (View.ld x1 r1_k5)) (k1_pay15 (View.ld x0 r1_q5) (View.ld x1 r1_k5))⟩,
    ⟨r1_q4, k1_pay12 (k1_pay11 (View.ld x0 r1_q4)) (View.ld x1 r1_k4) (View.ld x2 r1_k4)⟩,
    ⟨r1_q3, k1_pay10 (View.ld x0 r1_q3) (View.ld x1 r1_k3) (View.ld x2 r1_k3)⟩,
    ⟨r1_q2, k1_pay9 (k1_pay7 (View.ld x2 r1_k2)) (k1_pay8 (View.ld x0 r1_q2) (View.ld x1 r1_k2))⟩,
    ⟨r1_q1, k1_pay6 (k1_pay3 (View.ld x0 r1_q1)) (k1_pay4 (View.ld x1 r1_k1)) (k1_pay5 (View.ld x2 r1_k1))⟩,
    ⟨r1_q0, k1_pay2 (View.ld x0 r1_q0) (View.ld x1 r1_k0) (View.ld x2 r1_k0)⟩]

/-- Its stores tile the buffer in sixteen column blocks of 64 (checked by evaluation over the block
    indices, whatever the payloads), so they cover it. -/
theorem cover1_3 (p0 p1 p2 p3 p4 p5 p6 p7 p8 p9 p10 p11 p12 p13 p14 p15 : Vec F S1x512x64 .bf16) (y : S1x512x1024.Idx) :
    ∃ pc ∈ ([⟨r1_q15, p15⟩, ⟨r1_q14, p14⟩, ⟨r1_q13, p13⟩, ⟨r1_q12, p12⟩, ⟨r1_q11, p11⟩, ⟨r1_q10, p10⟩, ⟨r1_q9, p9⟩, ⟨r1_q8, p8⟩, ⟨r1_q7, p7⟩, ⟨r1_q6, p6⟩, ⟨r1_q5, p5⟩, ⟨r1_q4, p4⟩, ⟨r1_q3, p3⟩, ⟨r1_q2, p2⟩, ⟨r1_q1, p1⟩, ⟨r1_q0, p0⟩] : List (View.Piece (Elt F) S1x512x1024 .bf16)), y ∈ pc.1.set :=
  View.cover_of_tiled [⟨r1_q15, p15⟩, ⟨r1_q14, p14⟩, ⟨r1_q13, p13⟩, ⟨r1_q12, p12⟩, ⟨r1_q11, p11⟩, ⟨r1_q10, p10⟩, ⟨r1_q9, p9⟩, ⟨r1_q8, p8⟩, ⟨r1_q7, p7⟩, ⟨r1_q6, p6⟩, ⟨r1_q5, p5⟩, ⟨r1_q4, p4⟩, ⟨r1_q3, p3⟩, ⟨r1_q2, p2⟩, ⟨r1_q1, p1⟩, ⟨r1_q0, p0⟩] S1x512x64.size (by rfl) y

/-! ## The body's triple -/

set_option maxHeartbeats 4000000 in
/-- The kernel body on whole staging memrefs, the three inputs' at read contents `x0 x1 x2` and the output's at
    anything, runs to the continuation holding the inputs' as they were and the output's at `out1_3` of the inputs':
    the printed function and its eleven parts are their skeletons, which the symbolic executor runs through every
    part call, listing the sixteen stores into the output buffer; each load of an input reads the block at the
    load's rectangle, the loads of the output buffer (one before each store) are dead, and the listed stores, which
    cover the buffer, read back as their canonical contents whatever the buffer held before. -/
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1x512x1024 .bf16) (harg5 : arg5.IsWhole)
    (x0 : Vec F S1x512x1024 .bf16) (x1 x2 : Vec F S1x2048x1024 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton, k1_part2_eq_skeleton, k1_part3_eq_skeleton, k1_part4_eq_skeleton,
    k1_part5_eq_skeleton, k1_part6_eq_skeleton, k1_part7_eq_skeleton, k1_part8_eq_skeleton,
    k1_part9_eq_skeleton, k1_part10_eq_skeleton, k1_part11_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _ _ _ _ _ _ _ _ _ _ _ _ _ _ _)

end Cert.KernelIdeal.Gen
-- ==== Proof.Region1.lean ====
/-
  Region 1 of the program: attention, on a grid of 4 batches × 4 query tiles of 512 rows.
  At each grid point the body reads the query tile and the batch's whole key and value slabs — three blocks of ONE
  array, the fused projection's output, at column offsets 0, 1024 and 2048 — and writes the 512-row tile of the
  attention output, head by head. This module states, for any contents `V` of the TensorCore's buffers at the
  region's entry: each window's block at a point, the pipeline's proof data — the one shared array held by the
  three input windows at three shares that make up the whole — and the body obligation at every point, from the
  body's triple. Generic in the float instance.
-/
import proofs.«107256_j17025250361728_2_alg».proof.Proof.Gen.KernelIdeal.Launch
import proofs.«107256_j17025250361728_2_alg».proof.Proof.Gen.KernelIdeal.Skeleton
import proofs.«107256_j17025250361728_2_alg».proof.Proof.Gen.KernelIdeal.Points
import proofs.«107256_j17025250361728_2_alg».proof.Proof.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there: an unfetched window's block index has not moved, so the block it still holds is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the pipeline fetched it
    there: an unfetched window's block index has not moved, so the block it still holds is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the pipeline fetched it
    there: an unfetched window's block index has not moved, so the block it still holds is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The three shares the input windows hold the one array at: a half, and the two halves of the other half. -/
abbrev shareQ : PosShare TreeShare := fullShare.left
abbrev shareK : PosShare TreeShare := fullShare.right.left
abbrev shareV : PosShare TreeShare := fullShare.right.right

/-- The proof data of this pipeline on core `c`: the arrays as the region finds them; after the body at point `t`
    each input's buffer still at its block and the output's at `out1_3` of the input blocks; the invariant is the
    untouched rest; nothing owed; the shared input array held at the three shares, the output at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => shareQ
    | ⟨1, _⟩ => shareK
    | ⟨2, _⟩ => shareV
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Region1Shares.lean ====
/-
  Region 1's shared input array. Its three input windows (queries, keys, values) are blocks of one array, so the
  region's proof data hold that array three times, at three shares that make up the whole: a half for the queries'
  window, and the two halves of the other half for the keys' and the values'. This module says what the pipeline's
  `arrays` are as four points-to facts, how the core's unscoped buffers give them at the region's entry (the shared
  array, held whole, divided along the share), and how they give the unscoped buffers back at the exit (the three
  shares of the unchanged input array put together again, the output array at its new contents).
-/
import proofs.«107256_j17025250361728_2_alg».proof.Proof.Gen.KernelIdeal.Launch
import proofs.«107256_j17025250361728_2_alg».proof.Proof.Gen.KernelIdeal.Skeleton
import proofs.«107256_j17025250361728_2_alg».proof.Proof.Gen.KernelIdeal.Points
import proofs.«107256_j17025250361728_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The two distinct buffers behind the region's four windows: the fused projection's output and the attention
    output. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_v10) ↦{fullShare} V main_v10)) := by
  unfold Pipeline.arrBufs
  exact bigSep_eq_bigSepL_of_eq [main_v9, main_v10] (by decide) (by decide) _

/-- The pipeline's arrays, window by window: the shared input array at the three shares, the output array whole. -/
theorem arrays1_eq (V : (c : Dev nD) → (b : Ref sig .tc) → Buf (Elt F) ((c : Thread nD τ).loc b))
    (Fa : (w : Fin cfg1.W) → Buf (Elt F) ((cfg1.win w).arr.view.loc (c.tc : Thread nD τ))) :
    ((dat1 V c).arrays Fa : sProp 𝕄)
      = iprop((((c : Thread nD τ).loc main_v9) ↦{shareQ} Fa 0) ∗ (((c : Thread nD τ).loc main_v9) ↦{shareK} Fa 1)
          ∗ (((c : Thread nD τ).loc main_v9) ↦{shareV} Fa 2) ∗ (((c : Thread nD τ).loc main_v10) ↦{fullShare} Fa 3)) := by
  unfold Dat.arrays
  rw [bigSep_W1, (arr_whole1 0).set_eq_univ, (arr_whole1 3).set_eq_univ]
  rfl

/-- ENTRY. The core's unscoped buffers at the region's entry contents give the pipeline's arrays at those contents —
    the shared array divided along the share among the three input windows — beside the buffers that are no window's
    array. -/
theorem entry1 (V : (c : Dev nD) → (b : Ref sig .tc) → Buf (Elt F) ((c : Thread nD τ).loc b)) :
    (unscopedBufs c (V c) : sProp 𝕄)
      ⊢ iprop((dat1 V c).arrays (dat1 V c).A
          ∗ Pipeline.unscopedRest (Ix := Unit) (Name := ℕ) (U := UR sig nD τ) (Lvl := ℕ) spec1 c (V c)) := by
  have hs : (unscopedBufs c (V c) : sProp 𝕄)
      = iprop(Pipeline.arrBufs (Ix := Unit) (Name := ℕ) (U := UR sig nD τ) (Lvl := ℕ) spec1 c (V c)
          ∗ Pipeline.unscopedRest (Ix := Unit) (Name := ℕ) (U := UR sig nD τ) (Lvl := ℕ) spec1 c (V c)) :=
    Pipeline.unscopedBufs_split₀ cfgs 1 winFacts₀1.arr_unscoped c (V c)
  rw [hs, arrBufs1_eq, arrays1_eq]
  have hq : (((c : Thread nD τ).loc main_v9) ↦{fullShare} V c main_v9 : sProp 𝕄)
      ⊢ iprop((((c : Thread nD τ).loc main_v9) ↦{shareQ} V c main_v9) ∗ (((c : Thread nD τ).loc main_v9) ↦{fullShare.right} V c main_v9)) :=
    (pointsTo_share (PosShare.mem_left_op_right fullShare)).1
  have hkv : (((c : Thread nD τ).loc main_v9) ↦{fullShare.right} V c main_v9 : sProp 𝕄)
      ⊢ iprop((((c : Thread nD τ).loc main_v9) ↦{shareK} V c main_v9) ∗ (((c : Thread nD τ).loc main_v9) ↦{shareV} V c main_v9)) :=
    (pointsTo_share (PosShare.mem_left_op_right fullShare.right)).1
  iintro ⟨⟨H9, H10⟩, Hrest⟩
  ihave H9' := hq $$ H9
  icases H9' with ⟨Hq, Hkv⟩
  ihave Hkv' := hkv $$ Hkv
  icases Hkv' with ⟨Hk, Hv⟩
  isplitr [Hrest]
  · isplitl [Hq]; · iexact Hq
    isplitl [Hk]; · iexact Hk
    isplitl [Hv]; · iexact Hv
    iexact H10
  iexact Hrest

/-- EXIT. The pipeline's arrays — the three input windows all at the unchanged contents of the shared array, the
    output window at its new contents — beside the buffers that are no window's array, are the core's unscoped
    buffers at any contents `V'` that have the output array at the new contents and agree with the entry contents
    everywhere else. -/
theorem exit1 (V : (c : Dev nD) → (b : Ref sig .tc) → Buf (Elt F) ((c : Thread nD τ).loc b))
    (V' : (b : Ref sig .tc) → Buf (Elt F) ((c : Thread nD τ).loc b))
    (Fa : (w : Fin cfg1.W) → Buf (Elt F) ((cfg1.win w).arr.view.loc (c.tc : Thread nD τ)))
    (h0 : Fa 0 = V' main_v9) (h1 : Fa 1 = V' main_v9) (h2 : Fa 2 = V' main_v9) (h3 : Fa 3 = V' main_v10)
    (hrest : ∀ b, b ∉ Finset.univ.image (Pipeline.arrRef spec1) → V' b = V c b) :
    iprop((dat1 V c).arrays Fa
        ∗ Pipeline.unscopedRest (Ix := Unit) (Name := ℕ) (U := UR sig nD τ) (Lvl := ℕ) spec1 c (V c))
      ⊢ (unscopedBufs c V' : sProp 𝕄) := by
  have hs : (unscopedBufs c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
    Pipeline.unscopedBufs_split₀ cfgs 1 winFacts₀1.arr_unscoped c V'
  rw [hs, arrBufs1_eq, arrays1_eq, h0, h1, h2, h3]
  have hq : iprop((((c : Thread nD τ).loc main_v9) ↦{shareQ} V' main_v9) ∗ (((c : Thread nD τ).loc main_v9) ↦{fullShare.right} V' main_v9))
      ⊢ (((c : Thread nD τ).loc main_v9) ↦{fullShare} V' main_v9 : sProp 𝕄) :=
    (pointsTo_share (PosShare.mem_left_op_right fullShare)).2
  have hkv : iprop((((c : Thread nD τ).loc main_v9) ↦{shareK} V' main_v9) ∗ (((c : Thread nD τ).loc main_v9) ↦{shareV} V' main_v9))
      ⊢ (((c : Thread nD τ).loc main_v9) ↦{fullShare.right} V' main_v9 : sProp 𝕄) :=
    (pointsTo_share (PosShare.mem_left_op_right fullShare.right)).2
  iintro ⟨⟨Hq, Hk, Hv, H10⟩, Hrest⟩
  isplitr [Hrest]
  · isplitr [H10]
    · iapply hq
      isplitl [Hq]; · iexact Hq
      iapply hkv
      isplitl [Hk] <;> iassumption
    iexact H10
  iapply (Entails.of_eq (show (Pipeline.unscopedRest (Ix := Unit) (Name := ℕ) (U := UR sig nD τ) (Lvl := ℕ) spec1 c (V c) : sProp 𝕄)
      = Pipeline.unscopedRest spec1 c V' from by
    unfold Pipeline.unscopedRest
    exact bigSep_congr fun b hb => by rw [hrest b (Finset.mem_sdiff.mp hb).2]))
  iexact Hrest

end Cert.KernelIdeal.Gen

end
-- ==== Proof.Region2.lean ====
/-
  Region 2 of the program: the linear layer  out = a · w + bias  on a grid of 16 row tiles.
  At each grid point the body reads a 512-row tile of the activations, the whole weight matrix and the bias row,
  and writes the 512-row tile of the product plus the bias (rounded to the output's format). This module states,
  for any contents `V` of the TensorCore's buffers at the region's entry: each window's block at a point, what
  the body leaves in the output window's buffer as a function of the three input blocks, the body's triple, the
  pipeline's proof data and the body obligation at every point. Generic in the float instance.
-/
import proofs.«107256_j17025250361728_2_alg».proof.Proof.Gen.KernelIdeal.Launch
import proofs.«107256_j17025250361728_2_alg».proof.Proof.Gen.KernelIdeal.Skeleton
import proofs.«107256_j17025250361728_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there: an unfetched window's block index has not moved, so the block it still holds is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the pipeline fetched it
    there: an unfetched window's block index has not moved, so the block it still holds is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the pipeline fetched it
    there: an unfetched window's block index has not moved, so the block it still holds is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the one store take the whole staging buffer -/

abbrev rA2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0
abbrev rO2 : Rect S512x1024 := Rect.unit (s := S512x1024) ![0, 0] S512x1024.size inb_S512x1024_S512x1024_0_0

/-! ## What the body leaves in the output window's buffer -/

/-- The output tile after the body: its one store, of the product of the activation tile and the weights plus the
    bias row, as a function of the three input blocks. -/
def out2_3 (x0 : Vec F S512x1024 .bf16) (x1 : Vec F S1024x1024 .bf16) (x2 : Vec F S1x1024 .f32) : Vec F S512x1024 .f32 :=
  View.canon [⟨rO2, k2_pay1 (View.ld x0 rA2) (View.ld x1 rW2) (View.ld x2 rB2)⟩]

/-- The one store covers the whole tile. -/
theorem cover2_3 (p0 : Vec F S512x1024 .f32) (y : S512x1024.Idx) :
    ∃ pc ∈ ([⟨rO2, p0⟩] : List (View.Piece (Elt F) S512x1024 .f32)), y ∈ pc.1.set :=
  View.cover_of_tiled [⟨rO2, p0⟩] S512x1024.size (by rfl) y

/-! ## The body's triple -/

set_option maxHeartbeats 1000000 in
/-- The body on whole staging buffers, the inputs' at contents `x0 x1 x2` and the output's at anything, runs to the
    continuation with the inputs' as they were and the output's at `out2_3` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t`
    each input's buffer still at its block and the output's at `out2_3` of the input blocks; the invariant is
    the untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Run.lean ====
/-
  The run of the whole program: @main is seven segments — a stretch of host operations, the projection region, a
  reshape, the attention region, a stretch of host operations, the output projection region, a reshape. This module
  names the contents of the TensorCore's unscoped buffers at each of the eight boundaries as a fold from the launch
  memory (a host stretch applies its operations; a region leaves its arrays at what its write-backs make of them and
  every other buffer alone), gives each region its segment record over the thread state "every unscoped buffer at the
  boundary's contents", and proves that every weakly fair execution terminates with every unscoped buffer at the last
  boundary's contents. No segment writes an argument, so the arguments end as launched. Generic in the float instance.
-/
import proofs.«107256_j17025250361728_2_alg».proof.Proof.Region0
import proofs.«107256_j17025250361728_2_alg».proof.Proof.Region1
import proofs.«107256_j17025250361728_2_alg».proof.Proof.Region1Shares
import proofs.«107256_j17025250361728_2_alg».proof.Proof.Region2
import proofs.«107256_j17025250361728_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the reshape (the attention region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the attention region's exit: its one output array at what the pipeline leaves, every other buffer — the shared
    input array among them — as entered. -/
def W4 (c : Dev nD) : Valuation τ sig (Elt F) :=
  Function.update (W3 m c) (Proc.devRef .tc main_v10) ((dat1 (U3 m) c).arrAt 3 cfg1.N)
theorem W4_out (c : Dev nD) : W4 m c (Proc.devRef .tc main_v10) = (dat1 (U3 m) c).arrAt 3 cfg1.N := by
  unfold W4; exact Function.update_self ..
theorem W4_of_ne (c : Dev nD) (b : Ref sig .tc) (hb : b ≠ main_v10) :
    W4 m c (Proc.devRef .tc b) = W3 m c (Proc.devRef .tc b) := by
  unfold W4; exact Function.update_of_ne (StableHlo.devRef_ne_of_ne hb) ..
abbrev U4 : (c : Dev nD) → (b : Ref sig .tc) → Buf (Elt F) ((c : Thread nD τ).loc b) := fun c b => W4 m c b

/-- After the third host stretch (the output projection region's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At the output projection region's exit. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last reshape: the contents every execution ends at. -/
abbrev W7 : Dev nD → Valuation τ sig (Elt F) := fun c => StableHlo.after hostOps3 (W6 m c)

/-! ### The arguments end as launched: no host operation writes one, and no region has one among its arrays -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (r := main_arg7) (by decide)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (r := main_arg8) (by decide)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl

/-! ### The attention region's arrays at its exit -/

/-- An input window's array is never written back: the shared input array ends as entered. -/
theorem hF1_0 (c : Dev nD) : (dat1 (U3 m) c).arrAt 0 cfg1.N = U4 m c main_v9 :=
  ((dat1 (U3 m) c).arrAt_in 0 rfl _).trans ((A_eq1 (U3 m) c 0).trans (W4_of_ne m c main_v9 (by decide)).symm)
theorem hF1_1 (c : Dev nD) : (dat1 (U3 m) c).arrAt 1 cfg1.N = U4 m c main_v9 :=
  ((dat1 (U3 m) c).arrAt_in 1 rfl _).trans ((A_eq1 (U3 m) c 1).trans (W4_of_ne m c main_v9 (by decide)).symm)
theorem hF1_2 (c : Dev nD) : (dat1 (U3 m) c).arrAt 2 cfg1.N = U4 m c main_v9 :=
  ((dat1 (U3 m) c).arrAt_in 2 rfl _).trans ((A_eq1 (U3 m) c 2).trans (W4_of_ne m c main_v9 (by decide)).symm)
/-- The output array ends at what the write-backs made of it. -/
theorem hF1_3 (c : Dev nD) : (dat1 (U3 m) c).arrAt 3 cfg1.N = U4 m c main_v10 := (W4_out m c).symm
/-- Every buffer that is no array of the region ends as entered. -/
theorem hrest1 (c : Dev nD) : ∀ b, b ∉ Finset.univ.image (Pipeline.arrRef spec1) → U4 m c b = U3 m c b :=
  fun b hb => W4_of_ne m c b fun e => hb (Finset.mem_image.mpr ⟨3, Finset.mem_univ _, by rw [e]⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state "every unscoped buffer at the boundary's contents, the generator register at some
    state, nothing owed": entered at `W1`, left at `W2`. Its arrays are split out of the unscoped buffers at
    entry and put back at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": entered at `W5`, left at `W6`. Its arrays are split out of the unscoped buffers at
    entry and put back at the exit contents; the generator register goes into the invariant and comes out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the same thread state: entered at `W3`, left at `W4`. Its three input windows are
    blocks of ONE array: at entry that array, held whole, is divided along the share among the three windows (a half,
    and the two halves of the other half), and at exit — the inputs' array unchanged — the three shares are put
    together again; the output array comes back at what the write-backs made of it. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := entry1 c (U3 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 c (U3 m) (U4 m c) ((pdats m 1 c).arrAt · cfg1.N) (hF1_0 m c) (hF1_1 m c) (hF1_2 m c) (hF1_3 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's seven segments in order. -/
abbrev allSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments. -/
theorem main_run (c : Dev nD) : main (F := F) c = Pipeline.Seg.run (allSegs m) := (main_chain c).trans (by chain_rfl)

/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

set_option backward.isDefEq.respectTransparency.types false in
/-- THE RUN. From any memory with zero counters, every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: the program runs and its nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c)⟩) (run_all m ρ)

end Cert.KernelIdeal.Gen

end
-- ==== Proof.Word.Region0.lean ====
/-
  (The word-level program: the same text as for the idealized program, which is the same program read at the
  exact instance; every statement here is generic in the float instance.)
  Region 0 of the program: the linear layer  out = a · w + bias  on a grid of 16 row tiles.
  At each grid point the body reads a 512-row tile of the activations, the whole weight matrix and the bias row,
  and writes the 512-row tile of the product plus the bias (rounded to the output's format). This module states,
  for any contents `V` of the TensorCore's buffers at the region's entry: each window's block at a point, what
  the body leaves in the output window's buffer as a function of the three input blocks, the body's triple, the
  pipeline's proof data and the body obligation at every point. Generic in the float instance.
-/
import proofs.«107256_j17025250361728_2_alg».proof.Proof.Gen.Kernel.Launch
import proofs.«107256_j17025250361728_2_alg».proof.Proof.Gen.Kernel.Skeleton
import proofs.«107256_j17025250361728_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there: an unfetched window's block index has not moved, so the block it still holds is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there: an unfetched window's block index has not moved, so the block it still holds is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there: an unfetched window's block index has not moved, so the block it still holds is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store take the whole staging buffer -/

abbrev rA0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0
abbrev rO0 : Rect S512x3072 := Rect.unit (s := S512x3072) ![0, 0] S512x3072.size inb_S512x3072_S512x3072_0_0

/-! ## What the body leaves in the output window's buffer -/

/-- The output tile after the body: its one store, of the product of the activation tile and the weights plus the
    bias row, as a function of the three input blocks. -/
def out0_3 (x0 : Vec F S512x1024 .f32) (x1 : Vec F S1024x3072 .bf16) (x2 : Vec F S1x3072 .f32) : Vec F S512x3072 .bf16 :=
  View.canon [⟨rO0, k0_pay1 (View.ld x0 rA0) (View.ld x1 rW0) (View.ld x2 rB0)⟩]

/-- The one store covers the whole tile. -/
theorem cover0_3 (p0 : Vec F S512x3072 .bf16) (y : S512x3072.Idx) :
    ∃ pc ∈ ([⟨rO0, p0⟩] : List (View.Piece (Elt F) S512x3072 .bf16)), y ∈ pc.1.set :=
  View.cover_of_tiled [⟨rO0, p0⟩] S512x3072.size (by rfl) y

/-! ## The body's triple -/

set_option maxHeartbeats 1000000 in
/-- The body on whole staging buffers, the inputs' at contents `x0 x1 x2` and the output's at anything, runs to the
    continuation with the inputs' as they were and the output's at `out0_3` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer still at its block and the output's at `out0_3` of the input blocks; the invariant is
    the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.Word.Region1Body.lean ====
/-
  (The word-level program: the same text as for the idealized program, which is the same program read at the
  exact instance; every statement here is generic in the float instance.)
  The body half of the frame proof for the attention kernel `cc1__attn_kernel` (the second of the
  program's three pallas_calls), at any float instance `F`.

  At one grid point the body sees the query window's block `x0 : [1, 512, 1024]`, the key window's
  block `x1 : [1, 2048, 1024]` and the value window's block `x2 : [1, 2048, 1024]`, and fills the
  output window's block `[1, 512, 1024]` head by head: for each of the 16 heads `h` it loads columns
  `64 h … 64 h + 63` of the three inputs, computes `softmax(q kᵀ / 4) v` for that head, and stores the
  `[1, 512, 64]` result into the same columns of the output. The sixteen stores are through literal
  rectangles that tile the output block, so what the body leaves there is a closed function of the
  three input blocks: the canonical contents of the sixteen pieces (`out1_3`). The triple
  `sound_kernel1` says exactly that: from the three inputs at read contents `x0 x1 x2` and the output
  at anything, the body runs to the inputs unchanged and the output at `out1_3 x0 x1 x2`.
-/
import proofs.«107256_j17025250361728_2_alg».proof.Proof.Gen.Kernel.Launch
import proofs.«107256_j17025250361728_2_alg».proof.Proof.Gen.Kernel.Skeleton
import proofs.«107256_j17025250361728_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Head `h` (of 16) occupies columns `64 h … 64 h + 63` of the last axis. The query block and the output
block have the same shape, so one family of rectangles serves the query loads and the output stores;
the key block and the value block share the other family. -/

abbrev r1_q0 : Rect S1x512x1024 := Rect.unit (s := S1x512x1024) ![0, 0, 0] S1x512x64.size inb_S1x512x1024_S1x512x64_0_0_0
abbrev r1_q1 : Rect S1x512x1024 := Rect.unit (s := S1x512x1024) ![0, 0, 64] S1x512x64.size inb_S1x512x1024_S1x512x64_0_0_64
abbrev r1_q2 : Rect S1x512x1024 := Rect.unit (s := S1x512x1024) ![0, 0, 128] S1x512x64.size inb_S1x512x1024_S1x512x64_0_0_128
abbrev r1_q3 : Rect S1x512x1024 := Rect.unit (s := S1x512x1024) ![0, 0, 192] S1x512x64.size inb_S1x512x1024_S1x512x64_0_0_192
abbrev r1_q4 : Rect S1x512x1024 := Rect.unit (s := S1x512x1024) ![0, 0, 256] S1x512x64.size inb_S1x512x1024_S1x512x64_0_0_256
abbrev r1_q5 : Rect S1x512x1024 := Rect.unit (s := S1x512x1024) ![0, 0, 320] S1x512x64.size inb_S1x512x1024_S1x512x64_0_0_320
abbrev r1_q6 : Rect S1x512x1024 := Rect.unit (s := S1x512x1024) ![0, 0, 384] S1x512x64.size inb_S1x512x1024_S1x512x64_0_0_384
abbrev r1_q7 : Rect S1x512x1024 := Rect.unit (s := S1x512x1024) ![0, 0, 448] S1x512x64.size inb_S1x512x1024_S1x512x64_0_0_448
abbrev r1_q8 : Rect S1x512x1024 := Rect.unit (s := S1x512x1024) ![0, 0, 512] S1x512x64.size inb_S1x512x1024_S1x512x64_0_0_512
abbrev r1_q9 : Rect S1x512x1024 := Rect.unit (s := S1x512x1024) ![0, 0, 576] S1x512x64.size inb_S1x512x1024_S1x512x64_0_0_576
abbrev r1_q10 : Rect S1x512x1024 := Rect.unit (s := S1x512x1024) ![0, 0, 640] S1x512x64.size inb_S1x512x1024_S1x512x64_0_0_640
abbrev r1_q11 : Rect S1x512x1024 := Rect.unit (s := S1x512x1024) ![0, 0, 704] S1x512x64.size inb_S1x512x1024_S1x512x64_0_0_704
abbrev r1_q12 : Rect S1x512x1024 := Rect.unit (s := S1x512x1024) ![0, 0, 768] S1x512x64.size inb_S1x512x1024_S1x512x64_0_0_768
abbrev r1_q13 : Rect S1x512x1024 := Rect.unit (s := S1x512x1024) ![0, 0, 832] S1x512x64.size inb_S1x512x1024_S1x512x64_0_0_832
abbrev r1_q14 : Rect S1x512x1024 := Rect.unit (s := S1x512x1024) ![0, 0, 896] S1x512x64.size inb_S1x512x1024_S1x512x64_0_0_896
abbrev r1_q15 : Rect S1x512x1024 := Rect.unit (s := S1x512x1024) ![0, 0, 960] S1x512x64.size inb_S1x512x1024_S1x512x64_0_0_960

abbrev r1_k0 : Rect S1x2048x1024 := Rect.unit (s := S1x2048x1024) ![0, 0, 0] S1x2048x64.size inb_S1x2048x1024_S1x2048x64_0_0_0
abbrev r1_k1 : Rect S1x2048x1024 := Rect.unit (s := S1x2048x1024) ![0, 0, 64] S1x2048x64.size inb_S1x2048x1024_S1x2048x64_0_0_64
abbrev r1_k2 : Rect S1x2048x1024 := Rect.unit (s := S1x2048x1024) ![0, 0, 128] S1x2048x64.size inb_S1x2048x1024_S1x2048x64_0_0_128
abbrev r1_k3 : Rect S1x2048x1024 := Rect.unit (s := S1x2048x1024) ![0, 0, 192] S1x2048x64.size inb_S1x2048x1024_S1x2048x64_0_0_192
abbrev r1_k4 : Rect S1x2048x1024 := Rect.unit (s := S1x2048x1024) ![0, 0, 256] S1x2048x64.size inb_S1x2048x1024_S1x2048x64_0_0_256
abbrev r1_k5 : Rect S1x2048x1024 := Rect.unit (s := S1x2048x1024) ![0, 0, 320] S1x2048x64.size inb_S1x2048x1024_S1x2048x64_0_0_320
abbrev r1_k6 : Rect S1x2048x1024 := Rect.unit (s := S1x2048x1024) ![0, 0, 384] S1x2048x64.size inb_S1x2048x1024_S1x2048x64_0_0_384
abbrev r1_k7 : Rect S1x2048x1024 := Rect.unit (s := S1x2048x1024) ![0, 0, 448] S1x2048x64.size inb_S1x2048x1024_S1x2048x64_0_0_448
abbrev r1_k8 : Rect S1x2048x1024 := Rect.unit (s := S1x2048x1024) ![0, 0, 512] S1x2048x64.size inb_S1x2048x1024_S1x2048x64_0_0_512
abbrev r1_k9 : Rect S1x2048x1024 := Rect.unit (s := S1x2048x1024) ![0, 0, 576] S1x2048x64.size inb_S1x2048x1024_S1x2048x64_0_0_576
abbrev r1_k10 : Rect S1x2048x1024 := Rect.unit (s := S1x2048x1024) ![0, 0, 640] S1x2048x64.size inb_S1x2048x1024_S1x2048x64_0_0_640
abbrev r1_k11 : Rect S1x2048x1024 := Rect.unit (s := S1x2048x1024) ![0, 0, 704] S1x2048x64.size inb_S1x2048x1024_S1x2048x64_0_0_704
abbrev r1_k12 : Rect S1x2048x1024 := Rect.unit (s := S1x2048x1024) ![0, 0, 768] S1x2048x64.size inb_S1x2048x1024_S1x2048x64_0_0_768
abbrev r1_k13 : Rect S1x2048x1024 := Rect.unit (s := S1x2048x1024) ![0, 0, 832] S1x2048x64.size inb_S1x2048x1024_S1x2048x64_0_0_832
abbrev r1_k14 : Rect S1x2048x1024 := Rect.unit (s := S1x2048x1024) ![0, 0, 896] S1x2048x64.size inb_S1x2048x1024_S1x2048x64_0_0_896
abbrev r1_k15 : Rect S1x2048x1024 := Rect.unit (s := S1x2048x1024) ![0, 0, 960] S1x2048x64.size inb_S1x2048x1024_S1x2048x64_0_0_960

/-! ## What the body leaves in the output window's buffer -/

/-- The output window's staging buffer after the body, from the three input windows' blocks (`x0` the
    query block, `x1` the key block, `x2` the value block): its 16 stores as pieces, LAST FIRST. Head
    `h`'s piece is the attention of query columns `64 h …` against key columns `64 h …` applied to value
    columns `64 h …`, written to output columns `64 h …`; the payloads are the skeleton's, each part's
    returned values substituted into the part that stores them. -/
def out1_3 (x0 : Vec F S1x512x1024 .bf16) (x1 x2 : Vec F S1x2048x1024 .bf16) : Vec F S1x512x1024 .bf16 :=
  View.canon [
    ⟨r1_q15, k1_pay1 (k1_pay36 (View.ld x0 r1_q15)) (k1_pay37 (View.ld x1 r1_k15)) (View.ld x2 r1_k15)⟩,
    ⟨r1_q14, k1_pay35 (View.ld x0 r1_q14) (View.ld x1 r1_k14) (View.ld x2 r1_k14)⟩,
    ⟨r1_q13, k1_pay34 (k1_pay33 (View.ld x0 r1_q13) (View.ld x1 r1_k13) (View.ld x2 r1_k13))⟩,
    ⟨r1_q12, k1_pay32 (k1_pay30 (View.ld x2 r1_k12)) (k1_pay31 (View.ld x0 r1_q12) (View.ld x1 r1_k12))⟩,
    ⟨r1_q11, k1_pay29 (k1_pay28 (View.ld x0 r1_q11)) (View.ld x1 r1_k11) (View.ld x2 r1_k11)⟩,
    ⟨r1_q10, k1_pay27 (View.ld x0 r1_q10) (View.ld x1 r1_k10) (View.ld x2 r1_k10)⟩,
    ⟨r1_q9, k1_pay26 (k1_pay23 (View.ld x2 r1_k9)) (k1_pay24 (View.ld x0 r1_q9) (View.ld x1 r1_k9)) (k1_pay25 (View.ld x0 r1_q9) (View.ld x1 r1_k9))⟩,
    ⟨r1_q8, k1_pay22 (k1_pay20 (View.ld x0 r1_q8)) (k1_pay21 (View.ld x1 r1_k8)) (View.ld x2 r1_k8)⟩,
    ⟨r1_q7, k1_pay19 (View.ld x0 r1_q7) (View.ld x1 r1_k7) (View.ld x2 r1_k7)⟩,
    ⟨r1_q6, k1_pay18 (k1_pay17 (View.ld x0 r1_q6) (View.ld x1 r1_k6) (View.ld x2 r1_k6))⟩,
    ⟨r1_q5, k1_pay16 (k1_pay13 (View.ld x2 r1_k5)) (k1_pay14 (View.ld x0 r1_q5) (View.ld x1 r1_k5)) (k1_pay15 (View.ld x0 r1_q5) (View.ld x1 r1_k5))⟩,
    ⟨r1_q4, k1_pay12 (k1_pay11 (View.ld x0 r1_q4)) (View.ld x1 r1_k4) (View.ld x2 r1_k4)⟩,
    ⟨r1_q3, k1_pay10 (View.ld x0 r1_q3) (View.ld x1 r1_k3) (View.ld x2 r1_k3)⟩,
    ⟨r1_q2, k1_pay9 (k1_pay7 (View.ld x2 r1_k2)) (k1_pay8 (View.ld x0 r1_q2) (View.ld x1 r1_k2))⟩,
    ⟨r1_q1, k1_pay6 (k1_pay3 (View.ld x0 r1_q1)) (k1_pay4 (View.ld x1 r1_k1)) (k1_pay5 (View.ld x2 r1_k1))⟩,
    ⟨r1_q0, k1_pay2 (View.ld x0 r1_q0) (View.ld x1 r1_k0) (View.ld x2 r1_k0)⟩]

/-- Its stores tile the buffer in sixteen column blocks of 64 (checked by evaluation over the block
    indices, whatever the payloads), so they cover it. -/
theorem cover1_3 (p0 p1 p2 p3 p4 p5 p6 p7 p8 p9 p10 p11 p12 p13 p14 p15 : Vec F S1x512x64 .bf16) (y : S1x512x1024.Idx) :
    ∃ pc ∈ ([⟨r1_q15, p15⟩, ⟨r1_q14, p14⟩, ⟨r1_q13, p13⟩, ⟨r1_q12, p12⟩, ⟨r1_q11, p11⟩, ⟨r1_q10, p10⟩, ⟨r1_q9, p9⟩, ⟨r1_q8, p8⟩, ⟨r1_q7, p7⟩, ⟨r1_q6, p6⟩, ⟨r1_q5, p5⟩, ⟨r1_q4, p4⟩, ⟨r1_q3, p3⟩, ⟨r1_q2, p2⟩, ⟨r1_q1, p1⟩, ⟨r1_q0, p0⟩] : List (View.Piece (Elt F) S1x512x1024 .bf16)), y ∈ pc.1.set :=
  View.cover_of_tiled [⟨r1_q15, p15⟩, ⟨r1_q14, p14⟩, ⟨r1_q13, p13⟩, ⟨r1_q12, p12⟩, ⟨r1_q11, p11⟩, ⟨r1_q10, p10⟩, ⟨r1_q9, p9⟩, ⟨r1_q8, p8⟩, ⟨r1_q7, p7⟩, ⟨r1_q6, p6⟩, ⟨r1_q5, p5⟩, ⟨r1_q4, p4⟩, ⟨r1_q3, p3⟩, ⟨r1_q2, p2⟩, ⟨r1_q1, p1⟩, ⟨r1_q0, p0⟩] S1x512x64.size (by rfl) y

/-! ## The body's triple -/

set_option maxHeartbeats 4000000 in
/-- The kernel body on whole staging memrefs, the three inputs' at read contents `x0 x1 x2` and the output's at
    anything, runs to the continuation holding the inputs' as they were and the output's at `out1_3` of the inputs':
    the printed function and its eleven parts are their skeletons, which the symbolic executor runs through every
    part call, listing the sixteen stores into the output buffer; each load of an input reads the block at the
    load's rectangle, the loads of the output buffer (one before each store) are dead, and the listed stores, which
    cover the buffer, read back as their canonical contents whatever the buffer held before. -/
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1x512x1024 .bf16) (harg5 : arg5.IsWhole)
    (x0 : Vec F S1x512x1024 .bf16) (x1 x2 : Vec F S1x2048x1024 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton, k1_part2_eq_skeleton, k1_part3_eq_skeleton, k1_part4_eq_skeleton,
    k1_part5_eq_skeleton, k1_part6_eq_skeleton, k1_part7_eq_skeleton, k1_part8_eq_skeleton,
    k1_part9_eq_skeleton, k1_part10_eq_skeleton, k1_part11_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _ _ _ _ _ _ _ _ _ _ _ _ _ _ _)

end Cert.Kernel.Gen
-- ==== Proof.Word.Region1.lean ====
/-
  (The word-level program: the same text as for the idealized program, which is the same program read at the
  exact instance; every statement here is generic in the float instance.)
  Region 1 of the program: attention, on a grid of 4 batches × 4 query tiles of 512 rows.
  At each grid point the body reads the query tile and the batch's whole key and value slabs — three blocks of ONE
  array, the fused projection's output, at column offsets 0, 1024 and 2048 — and writes the 512-row tile of the
  attention output, head by head. This module states, for any contents `V` of the TensorCore's buffers at the
  region's entry: each window's block at a point, the pipeline's proof data — the one shared array held by the
  three input windows at three shares that make up the whole — and the body obligation at every point, from the
  body's triple. Generic in the float instance.
-/
import proofs.«107256_j17025250361728_2_alg».proof.Proof.Gen.Kernel.Launch
import proofs.«107256_j17025250361728_2_alg».proof.Proof.Gen.Kernel.Skeleton
import proofs.«107256_j17025250361728_2_alg».proof.Proof.Gen.Kernel.Points
import proofs.«107256_j17025250361728_2_alg».proof.Proof.Word.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there: an unfetched window's block index has not moved, so the block it still holds is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the pipeline fetched it
    there: an unfetched window's block index has not moved, so the block it still holds is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the pipeline fetched it
    there: an unfetched window's block index has not moved, so the block it still holds is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The three shares the input windows hold the one array at: a half, and the two halves of the other half. -/
abbrev shareQ : PosShare TreeShare := fullShare.left
abbrev shareK : PosShare TreeShare := fullShare.right.left
abbrev shareV : PosShare TreeShare := fullShare.right.right

/-- The proof data of this pipeline on core `c`: the arrays as the region finds them; after the body at point `t`
    each input's buffer still at its block and the output's at `out1_3` of the input blocks; the invariant is the
    untouched rest; nothing owed; the shared input array held at the three shares, the output at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => shareQ
    | ⟨1, _⟩ => shareK
    | ⟨2, _⟩ => shareV
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.Word.Region1Shares.lean ====
/-
  (The word-level program: the same text as for the idealized program, which is the same program read at the
  exact instance; every statement here is generic in the float instance.)
  Region 1's shared input array. Its three input windows (queries, keys, values) are blocks of one array, so the
  region's proof data hold that array three times, at three shares that make up the whole: a half for the queries'
  window, and the two halves of the other half for the keys' and the values'. This module says what the pipeline's
  `arrays` are as four points-to facts, how the core's unscoped buffers give them at the region's entry (the shared
  array, held whole, divided along the share), and how they give the unscoped buffers back at the exit (the three
  shares of the unchanged input array put together again, the output array at its new contents).
-/
import proofs.«107256_j17025250361728_2_alg».proof.Proof.Gen.Kernel.Launch
import proofs.«107256_j17025250361728_2_alg».proof.Proof.Gen.Kernel.Skeleton
import proofs.«107256_j17025250361728_2_alg».proof.Proof.Gen.Kernel.Points
import proofs.«107256_j17025250361728_2_alg».proof.Proof.Word.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The two distinct buffers behind the region's four windows: the fused projection's output and the attention
    output. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_v10) ↦{fullShare} V main_v10)) := by
  unfold Pipeline.arrBufs
  exact bigSep_eq_bigSepL_of_eq [main_v9, main_v10] (by decide) (by decide) _

/-- The pipeline's arrays, window by window: the shared input array at the three shares, the output array whole. -/
theorem arrays1_eq (V : (c : Dev nD) → (b : Ref sig .tc) → Buf (Elt F) ((c : Thread nD τ).loc b))
    (Fa : (w : Fin cfg1.W) → Buf (Elt F) ((cfg1.win w).arr.view.loc (c.tc : Thread nD τ))) :
    ((dat1 V c).arrays Fa : sProp 𝕄)
      = iprop((((c : Thread nD τ).loc main_v9) ↦{shareQ} Fa 0) ∗ (((c : Thread nD τ).loc main_v9) ↦{shareK} Fa 1)
          ∗ (((c : Thread nD τ).loc main_v9) ↦{shareV} Fa 2) ∗ (((c : Thread nD τ).loc main_v10) ↦{fullShare} Fa 3)) := by
  unfold Dat.arrays
  rw [bigSep_W1, (arr_whole1 0).set_eq_univ, (arr_whole1 3).set_eq_univ]
  rfl

/-- ENTRY. The core's unscoped buffers at the region's entry contents give the pipeline's arrays at those contents —
    the shared array divided along the share among the three input windows — beside the buffers that are no window's
    array. -/
theorem entry1 (V : (c : Dev nD) → (b : Ref sig .tc) → Buf (Elt F) ((c : Thread nD τ).loc b)) :
    (unscopedBufs c (V c) : sProp 𝕄)
      ⊢ iprop((dat1 V c).arrays (dat1 V c).A
          ∗ Pipeline.unscopedRest (Ix := Unit) (Name := ℕ) (U := UR sig nD τ) (Lvl := ℕ) spec1 c (V c)) := by
  have hs : (unscopedBufs c (V c) : sProp 𝕄)
      = iprop(Pipeline.arrBufs (Ix := Unit) (Name := ℕ) (U := UR sig nD τ) (Lvl := ℕ) spec1 c (V c)
          ∗ Pipeline.unscopedRest (Ix := Unit) (Name := ℕ) (U := UR sig nD τ) (Lvl := ℕ) spec1 c (V c)) :=
    Pipeline.unscopedBufs_split₀ cfgs 1 winFacts₀1.arr_unscoped c (V c)
  rw [hs, arrBufs1_eq, arrays1_eq]
  have hq : (((c : Thread nD τ).loc main_v9) ↦{fullShare} V c main_v9 : sProp 𝕄)
      ⊢ iprop((((c : Thread nD τ).loc main_v9) ↦{shareQ} V c main_v9) ∗ (((c : Thread nD τ).loc main_v9) ↦{fullShare.right} V c main_v9)) :=
    (pointsTo_share (PosShare.mem_left_op_right fullShare)).1
  have hkv : (((c : Thread nD τ).loc main_v9) ↦{fullShare.right} V c main_v9 : sProp 𝕄)
      ⊢ iprop((((c : Thread nD τ).loc main_v9) ↦{shareK} V c main_v9) ∗ (((c : Thread nD τ).loc main_v9) ↦{shareV} V c main_v9)) :=
    (pointsTo_share (PosShare.mem_left_op_right fullShare.right)).1
  iintro ⟨⟨H9, H10⟩, Hrest⟩
  ihave H9' := hq $$ H9
  icases H9' with ⟨Hq, Hkv⟩
  ihave Hkv' := hkv $$ Hkv
  icases Hkv' with ⟨Hk, Hv⟩
  isplitr [Hrest]
  · isplitl [Hq]; · iexact Hq
    isplitl [Hk]; · iexact Hk
    isplitl [Hv]; · iexact Hv
    iexact H10
  iexact Hrest

/-- EXIT. The pipeline's arrays — the three input windows all at the unchanged contents of the shared array, the
    output window at its new contents — beside the buffers that are no window's array, are the core's unscoped
    buffers at any contents `V'` that have the output array at the new contents and agree with the entry contents
    everywhere else. -/
theorem exit1 (V : (c : Dev nD) → (b : Ref sig .tc) → Buf (Elt F) ((c : Thread nD τ).loc b))
    (V' : (b : Ref sig .tc) → Buf (Elt F) ((c : Thread nD τ).loc b))
    (Fa : (w : Fin cfg1.W) → Buf (Elt F) ((cfg1.win w).arr.view.loc (c.tc : Thread nD τ)))
    (h0 : Fa 0 = V' main_v9) (h1 : Fa 1 = V' main_v9) (h2 : Fa 2 = V' main_v9) (h3 : Fa 3 = V' main_v10)
    (hrest : ∀ b, b ∉ Finset.univ.image (Pipeline.arrRef spec1) → V' b = V c b) :
    iprop((dat1 V c).arrays Fa
        ∗ Pipeline.unscopedRest (Ix := Unit) (Name := ℕ) (U := UR sig nD τ) (Lvl := ℕ) spec1 c (V c))
      ⊢ (unscopedBufs c V' : sProp 𝕄) := by
  have hs : (unscopedBufs c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
    Pipeline.unscopedBufs_split₀ cfgs 1 winFacts₀1.arr_unscoped c V'
  rw [hs, arrBufs1_eq, arrays1_eq, h0, h1, h2, h3]
  have hq : iprop((((c : Thread nD τ).loc main_v9) ↦{shareQ} V' main_v9) ∗ (((c : Thread nD τ).loc main_v9) ↦{fullShare.right} V' main_v9))
      ⊢ (((c : Thread nD τ).loc main_v9) ↦{fullShare} V' main_v9 : sProp 𝕄) :=
    (pointsTo_share (PosShare.mem_left_op_right fullShare)).2
  have hkv : iprop((((c : Thread nD τ).loc main_v9) ↦{shareK} V' main_v9) ∗ (((c : Thread nD τ).loc main_v9) ↦{shareV} V' main_v9))
      ⊢ (((c : Thread nD τ).loc main_v9) ↦{fullShare.right} V' main_v9 : sProp 𝕄) :=
    (pointsTo_share (PosShare.mem_left_op_right fullShare.right)).2
  iintro ⟨⟨Hq, Hk, Hv, H10⟩, Hrest⟩
  isplitr [Hrest]
  · isplitr [H10]
    · iapply hq
      isplitl [Hq]; · iexact Hq
      iapply hkv
      isplitl [Hk] <;> iassumption
    iexact H10
  iapply (Entails.of_eq (show (Pipeline.unscopedRest (Ix := Unit) (Name := ℕ) (U := UR sig nD τ) (Lvl := ℕ) spec1 c (V c) : sProp 𝕄)
      = Pipeline.unscopedRest spec1 c V' from by
    unfold Pipeline.unscopedRest
    exact bigSep_congr fun b hb => by rw [hrest b (Finset.mem_sdiff.mp hb).2]))
  iexact Hrest

end Cert.Kernel.Gen

end
-- ==== Proof.Word.Region2.lean ====
/-
  (The word-level program: the same text as for the idealized program, which is the same program read at the
  exact instance; every statement here is generic in the float instance.)
  Region 2 of the program: the linear layer  out = a · w + bias  on a grid of 16 row tiles.
  At each grid point the body reads a 512-row tile of the activations, the whole weight matrix and the bias row,
  and writes the 512-row tile of the product plus the bias (rounded to the output's format). This module states,
  for any contents `V` of the TensorCore's buffers at the region's entry: each window's block at a point, what
  the body leaves in the output window's buffer as a function of the three input blocks, the body's triple, the
  pipeline's proof data and the body obligation at every point. Generic in the float instance.
-/
import proofs.«107256_j17025250361728_2_alg».proof.Proof.Gen.Kernel.Launch
import proofs.«107256_j17025250361728_2_alg».proof.Proof.Gen.Kernel.Skeleton
import proofs.«107256_j17025250361728_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there: an unfetched window's block index has not moved, so the block it still holds is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the pipeline fetched it
    there: an unfetched window's block index has not moved, so the block it still holds is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the pipeline fetched it
    there: an unfetched window's block index has not moved, so the block it still holds is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the one store take the whole staging buffer -/

abbrev rA2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0
abbrev rO2 : Rect S512x1024 := Rect.unit (s := S512x1024) ![0, 0] S512x1024.size inb_S512x1024_S512x1024_0_0

/-! ## What the body leaves in the output window's buffer -/

/-- The output tile after the body: its one store, of the product of the activation tile and the weights plus the
    bias row, as a function of the three input blocks. -/
def out2_3 (x0 : Vec F S512x1024 .bf16) (x1 : Vec F S1024x1024 .bf16) (x2 : Vec F S1x1024 .f32) : Vec F S512x1024 .f32 :=
  View.canon [⟨rO2, k2_pay1 (View.ld x0 rA2) (View.ld x1 rW2) (View.ld x2 rB2)⟩]

/-- The one store covers the whole tile. -/
theorem cover2_3 (p0 : Vec F S512x1024 .f32) (y : S512x1024.Idx) :
    ∃ pc ∈ ([⟨rO2, p0⟩] : List (View.Piece (Elt F) S512x1024 .f32)), y ∈ pc.1.set :=
  View.cover_of_tiled [⟨rO2, p0⟩] S512x1024.size (by rfl) y

/-! ## The body's triple -/

set_option maxHeartbeats 1000000 in
/-- The body on whole staging buffers, the inputs' at contents `x0 x1 x2` and the output's at anything, runs to the
    continuation with the inputs' as they were and the output's at `out2_3` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t`
    each input's buffer still at its block and the output's at `out2_3` of the input blocks; the invariant is
    the untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.Word.Run.lean ====
/-
  (The word-level program: the same text as for the idealized program, which is the same program read at the
  exact instance; every statement here is generic in the float instance.)
  The run of the whole program: @main is seven segments — a stretch of host operations, the projection region, a
  reshape, the attention region, a stretch of host operations, the output projection region, a reshape. This module
  names the contents of the TensorCore's unscoped buffers at each of the eight boundaries as a fold from the launch
  memory (a host stretch applies its operations; a region leaves its arrays at what its write-backs make of them and
  every other buffer alone), gives each region its segment record over the thread state "every unscoped buffer at the
  boundary's contents", and proves that every weakly fair execution terminates with every unscoped buffer at the last
  boundary's contents. No segment writes an argument, so the arguments end as launched. Generic in the float instance.
-/
import proofs.«107256_j17025250361728_2_alg».proof.Proof.Word.Region0
import proofs.«107256_j17025250361728_2_alg».proof.Proof.Word.Region1
import proofs.«107256_j17025250361728_2_alg».proof.Proof.Word.Region1Shares
import proofs.«107256_j17025250361728_2_alg».proof.Proof.Word.Region2
import proofs.«107256_j17025250361728_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the reshape (the attention region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the attention region's exit: its one output array at what the pipeline leaves, every other buffer — the shared
    input array among them — as entered. -/
def W4 (c : Dev nD) : Valuation τ sig (Elt F) :=
  Function.update (W3 m c) (Proc.devRef .tc main_v10) ((dat1 (U3 m) c).arrAt 3 cfg1.N)
theorem W4_out (c : Dev nD) : W4 m c (Proc.devRef .tc main_v10) = (dat1 (U3 m) c).arrAt 3 cfg1.N := by
  unfold W4; exact Function.update_self ..
theorem W4_of_ne (c : Dev nD) (b : Ref sig .tc) (hb : b ≠ main_v10) :
    W4 m c (Proc.devRef .tc b) = W3 m c (Proc.devRef .tc b) := by
  unfold W4; exact Function.update_of_ne (StableHlo.devRef_ne_of_ne hb) ..
abbrev U4 : (c : Dev nD) → (b : Ref sig .tc) → Buf (Elt F) ((c : Thread nD τ).loc b) := fun c b => W4 m c b

/-- After the third host stretch (the output projection region's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At the output projection region's exit. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last reshape: the contents every execution ends at. -/
abbrev W7 : Dev nD → Valuation τ sig (Elt F) := fun c => StableHlo.after hostOps3 (W6 m c)

/-! ### The arguments end as launched: no host operation writes one, and no region has one among its arrays -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (r := main_arg7) (by decide)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (r := main_arg8) (by decide)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl

/-! ### The attention region's arrays at its exit -/

/-- An input window's array is never written back: the shared input array ends as entered. -/
theorem hF1_0 (c : Dev nD) : (dat1 (U3 m) c).arrAt 0 cfg1.N = U4 m c main_v9 :=
  ((dat1 (U3 m) c).arrAt_in 0 rfl _).trans ((A_eq1 (U3 m) c 0).trans (W4_of_ne m c main_v9 (by decide)).symm)
theorem hF1_1 (c : Dev nD) : (dat1 (U3 m) c).arrAt 1 cfg1.N = U4 m c main_v9 :=
  ((dat1 (U3 m) c).arrAt_in 1 rfl _).trans ((A_eq1 (U3 m) c 1).trans (W4_of_ne m c main_v9 (by decide)).symm)
theorem hF1_2 (c : Dev nD) : (dat1 (U3 m) c).arrAt 2 cfg1.N = U4 m c main_v9 :=
  ((dat1 (U3 m) c).arrAt_in 2 rfl _).trans ((A_eq1 (U3 m) c 2).trans (W4_of_ne m c main_v9 (by decide)).symm)
/-- The output array ends at what the write-backs made of it. -/
theorem hF1_3 (c : Dev nD) : (dat1 (U3 m) c).arrAt 3 cfg1.N = U4 m c main_v10 := (W4_out m c).symm
/-- Every buffer that is no array of the region ends as entered. -/
theorem hrest1 (c : Dev nD) : ∀ b, b ∉ Finset.univ.image (Pipeline.arrRef spec1) → U4 m c b = U3 m c b :=
  fun b hb => W4_of_ne m c b fun e => hb (Finset.mem_image.mpr ⟨3, Finset.mem_univ _, by rw [e]⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state "every unscoped buffer at the boundary's contents, the generator register at some
    state, nothing owed": entered at `W1`, left at `W2`. Its arrays are split out of the unscoped buffers at
    entry and put back at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": entered at `W5`, left at `W6`. Its arrays are split out of the unscoped buffers at
    entry and put back at the exit contents; the generator register goes into the invariant and comes out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the same thread state: entered at `W3`, left at `W4`. Its three input windows are
    blocks of ONE array: at entry that array, held whole, is divided along the share among the three windows (a half,
    and the two halves of the other half), and at exit — the inputs' array unchanged — the three shares are put
    together again; the output array comes back at what the write-backs made of it. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := entry1 c (U3 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 c (U3 m) (U4 m c) ((pdats m 1 c).arrAt · cfg1.N) (hF1_0 m c) (hF1_1 m c) (hF1_2 m c) (hF1_3 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's seven segments in order. -/
abbrev allSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments. -/
theorem main_run (c : Dev nD) : main (F := F) c = Pipeline.Seg.run (allSegs m) := (main_chain c).trans (by chain_rfl)

/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

set_option backward.isDefEq.respectTransparency.types false in
/-- THE RUN. From any memory with zero counters, every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: the program runs and its nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c)⟩) (run_all m ρ)

end Cert.Kernel.Gen

end
-- ==== Proof.Spec.lean ====
/-
  Multi-head self-attention as ONE function of its nine argument arrays, on the extended reals.

  Arrays are plain functions of literal coordinates: an activation `Fin 4 → Fin 2048 → Fin 1024 → EReal`
  (batch, position, feature), a weight `Fin 1024 → Fin 1024 → EReal` (output feature, input feature), a bias
  `Fin 1024 → EReal`. The 1024 features are 16 heads of 64: feature `col h d = 64 h + d`.

    proj x w β b l e        = (∑ d, x b l d · w e d) + β e                       a linear layer
    score q k b h i j       = (∑ d, q b i (col h d) · k b j (col h d)) · ¼       scaled dot product of head h
    rowMax f                = the maximum of f over the 2048 keys, from −∞
    expShift f j            = exp (f j − rowMax f)
    softmax f j             = expShift f j / ∑ j', expShift f j'
    attn q k v b i h d      = ∑ j, softmax (score q k b h i) j · v b j (col h d)
    merged q k v b l e      = attn q k v b l (e / 64) (e % 64)                   heads side by side again
    G x wq bq wk bk wv bv wo bo = proj (merged (proj x wq bq) (proj x wk bk) (proj x wv bv)) wo bo

  Every operation is the extended reals' own: `+`, `·`, `−`, `max`, `Ideal.exp` (`e^⊥ = 0`, `e^⊤ = ⊤`) and
  `Ideal.div`. The two float words that occur, ¼ and −∞, are kept as words (`quarter`, `negInf`): nothing below
  depends on what ¼ denotes, and of −∞ only that a fold of `max` from it is never below it (that it is `⊥` is
  `negInf_eq_bot`, for whoever wants it).
-/
import Idealize.ShloMosaic.PureOps.Ideal
import Idealize.ShloMosaic.PureOps.Ideal.Laws
import Idealize.ShloMosaic.Lib.ValueIdx
import Mathlib.Data.Finset.Fold
import Mathlib.Data.Finset.Lattice.Fold

noncomputable section

namespace Cert.Attn

open Idealize.ShloMosaic

/-- An activation array: batch, position, feature. -/
abbrev Act : Type := Fin 4 → Fin 2048 → Fin 1024 → EReal
/-- A weight matrix: output feature, input feature. -/
abbrev Wt : Type := Fin 1024 → Fin 1024 → EReal
/-- A bias vector. -/
abbrev Bias : Type := Fin 1024 → EReal

/-- An array of shape [4, 2048, 1024] as a function of its three coordinates. -/
def readAct (x : (⟨3, ![4, 2048, 1024]⟩ : Shape).Idx → EReal) : Act := fun b l d => x (ValueIdx.ix3 b l d)
/-- An array of shape [1024, 1024] as a function of its two coordinates. -/
def readWt (w : (⟨2, ![1024, 1024]⟩ : Shape).Idx → EReal) : Wt := fun e d => w (ValueIdx.ix2 e d)
/-- An array of shape [1024] as a function of its coordinate. -/
def readBias (β : (⟨1, ![1024]⟩ : Shape).Idx → EReal) : Bias := fun e => β (ValueIdx.ix1 e)

/-- A function of three coordinates as an array of shape [4, 2048, 1024]. -/
def actArray (a : Act) : (⟨3, ![4, 2048, 1024]⟩ : Shape).Idx → EReal := fun i => a (i 0) (i 1) (i 2)

theorem actArray_ix3 (a : Act) (b : Fin 4) (l : Fin 2048) (e : Fin 1024) : actArray a (ValueIdx.ix3 b l e) = a b l e := rfl
theorem readAct_actArray (a : Act) : readAct (actArray a) = a := rfl
theorem actArray_readAct (x : (⟨3, ![4, 2048, 1024]⟩ : Shape).Idx → EReal) : actArray (readAct x) = x :=
  funext fun i => congrArg x (ValueIdx.eq_ix3 i).symm

/-- The scale of the scores, ¼ as the f32 word both programs write. -/
def quarter : EReal := Ideal.ofBits .f32 0x3E800000#32
/-- The seed of a row's maximum, −∞ as the f32 word both programs write. -/
def negInf : EReal := Ideal.ofBits .f32 0xFF800000#32

/-- Feature `64 h + d`: coordinate `d` of head `h`. -/
def col (h : Fin 16) (d : Fin 64) : Fin 1024 := ⟨h.val * 64 + d.val, by have := h.isLt; have := d.isLt; omega⟩

theorem col_val (h : Fin 16) (d : Fin 64) : (col h d).val = h.val * 64 + d.val := rfl
theorem col_div (h : Fin 16) (d : Fin 64) : (col h d).val / 64 = h.val := by
  have := d.isLt; rw [col_val]; omega
theorem col_mod (h : Fin 16) (d : Fin 64) : (col h d).val % 64 = d.val := by
  have := d.isLt; rw [col_val]; omega

/-- The head of a feature. -/
def headOf (e : Fin 1024) : Fin 16 := ⟨e.val / 64, by have := e.isLt; omega⟩
/-- A feature's coordinate inside its head. -/
def laneOf (e : Fin 1024) : Fin 64 := ⟨e.val % 64, by omega⟩

theorem headOf_col (h : Fin 16) (d : Fin 64) : headOf (col h d) = h := Fin.ext (col_div h d)
theorem laneOf_col (h : Fin 16) (d : Fin 64) : laneOf (col h d) = d := Fin.ext (col_mod h d)
theorem col_headOf_laneOf (e : Fin 1024) : col (headOf e) (laneOf e) = e :=
  Fin.ext (by show e.val / 64 * 64 + e.val % 64 = e.val; omega)

/-- A linear layer: `x · wᵀ + β`. -/
def proj (x : Act) (w : Wt) (bias : Bias) : Act :=
  fun b l e => (∑ d : Fin 1024, x b l d * w e d) + bias e

/-- Head `h`'s scaled score of query `i` against key `j`. -/
def score (q k : Act) (b : Fin 4) (h : Fin 16) (i j : Fin 2048) : EReal :=
  (∑ d : Fin 64, q b i (col h d) * k b j (col h d)) * quarter

/-- A row's maximum over the 2048 keys, folded from −∞. -/
def rowMax (f : Fin 2048 → EReal) : EReal := (Finset.univ : Finset (Fin 2048)).fold max negInf f

/-- The exponential of a row entry less the row's maximum. -/
def expShift (f : Fin 2048 → EReal) (j : Fin 2048) : EReal := Ideal.exp (f j - rowMax f)

/-- The row's softmax weight at `j`. -/
def softmax (f : Fin 2048 → EReal) (j : Fin 2048) : EReal := Ideal.div (expShift f j) (∑ j' : Fin 2048, expShift f j')

/-- Head `h`'s output at query `i`, coordinate `d`. -/
def attn (q k v : Act) (b : Fin 4) (i : Fin 2048) (h : Fin 16) (d : Fin 64) : EReal :=
  ∑ j : Fin 2048, softmax (score q k b h i) j * v b j (col h d)

/-- The heads' outputs side by side: feature `e` is coordinate `e % 64` of head `e / 64`. -/
def merged (q k v : Act) : Act := fun b l e => attn q k v b l (headOf e) (laneOf e)

theorem merged_col (q k v : Act) (b : Fin 4) (l : Fin 2048) (h : Fin 16) (d : Fin 64) :
    merged q k v b l (col h d) = attn q k v b l h d := by
  unfold merged; rw [headOf_col, laneOf_col]

/-- Multi-head self-attention of `x` under the four linear layers. -/
def G (x : Act) (wq : Wt) (bq : Bias) (wk : Wt) (bk : Bias) (wv : Wt) (bv : Bias) (wo : Wt) (bo : Bias) : Act :=
  proj (merged (proj x wq bq) (proj x wk bk) (proj x wv bv)) wo bo

/-! ## The row maximum in the forms the two reductions arrive in

A vector reduction by `max` over one axis and a host reduction with a `max` body both read, at a result index, as the
fold of the float maximum from the seed word's value over that axis's coordinates; the host program then takes the
maximum of −∞ and that once more. -/

/-- The fold in the float operations' own names. -/
theorem rowMax_eq_fold_maximumf (f : Fin 2048 → EReal) :
    rowMax f = (Finset.univ : Finset (Fin 2048)).fold (FloatOps.maximumf (F := Ideal) (φ := .f32))
      (FloatOps.ofBits (F := Ideal) .f32 0xFF800000#32) f := rfl

/-- The fold with the seed as the word's value. -/
theorem rowMax_eq_fold (f : Fin 2048 → EReal) :
    rowMax f = (Finset.univ : Finset (Fin 2048)).fold max (Ideal.ofBits .f32 0xFF800000#32) f := rfl

/-- A fold of `max` is never below its seed … -/
theorem negInf_le_rowMax (f : Fin 2048 → EReal) : negInf ≤ rowMax f :=
  (Finset.le_fold_max negInf).mpr (Or.inl le_rfl)

/-- … so the maximum of the seed and the row's maximum is the row's maximum. -/
theorem max_negInf_rowMax (f : Fin 2048 → EReal) : max negInf (rowMax f) = rowMax f :=
  max_eq_right (negInf_le_rowMax f)

/-- The seed word denotes the bottom of the extended reals. -/
theorem negInf_eq_bot : negInf = ⊥ := by simp [negInf, Ideal.ofBits, Ideal.ieee]

/-- The row's maximum is the supremum of the row. -/
theorem rowMax_eq_sup (f : Fin 2048 → EReal) : rowMax f = (Finset.univ : Finset (Fin 2048)).sup f := by
  unfold rowMax; rw [negInf_eq_bot]; rfl

end Cert.Attn

end
-- ==== Proof.RefSpec.lean ====
/-
  The reference program computes the specification.

  Its run's result term is the last of 43 stages, each one host operation of the earlier ones. Read at an index built
  from literal coordinates, the stages are, in order: the three linear layers (a contraction over the 1024 input
  features plus a broadcast bias), each reshaped to [4, 2048, 16, 64] and transposed to [4, 16, 2048, 64], so that
  entry (b, h, i, d) is the layer's output at position i, feature 64 h + d; the scores, a contraction over the 64
  coordinates of a head times the scale; along the keys the maximum, folded from −∞ (and then, a second time, the
  maximum of −∞ and that, which changes nothing), the exponential of the difference, the sum from zero and the
  quotient; the contraction of the weights with the values over the 2048 keys; the transpose and reshape back to
  [4, 2048, 1024], where feature e is coordinate e % 64 of head e / 64; and the last linear layer. Each stage below is
  stated over the arrays the earlier stages produce, read at the index it needs, so no statement holds more than one
  operation's worth of term.
-/
import proofs.«107256_j17025250361728_2_alg».proof.Proof.Gen.ReferenceIdeal.Read
import proofs.«107256_j17025250361728_2_alg».proof.Proof.Spec

noncomputable section

namespace Cert.Attn.Ref

open Cert.ReferenceIdeal Cert.ReferenceIdeal.Gen Cert.ReferenceIdeal.Read
open Idealize.ShloMosaic Idealize.ShloMosaic.TcCoe Idealize.SL.Sem Idealize.ShloMosaic.ValueIdx

/-- Arrays of the three argument shapes, at the ideal values. -/
abbrev A3 : Type := (⟨S4x2048x1024, .f32⟩ : BufTy).Contents (Elt Ideal)
abbrev A2 : Type := (⟨S1024x1024, .f32⟩ : BufTy).Contents (Elt Ideal)
abbrev A1 : Type := (⟨S1024, .f32⟩ : BufTy).Contents (Elt Ideal)

/-! ## The index maps of the layout operations, on literal coordinates -/

theorem lidx_v0 (b : Fin 4) (l : Fin 2048) (e k : Fin 1024) : lidx_main_v0 (ix3 b l e) k = ix3 b l k :=
  funext fun a => Fin.ext (by match a with | ⟨0, _⟩ => rfl | ⟨1, _⟩ => rfl | ⟨2, _⟩ => rfl)
theorem ridx_v0 (b : Fin 4) (l : Fin 2048) (e k : Fin 1024) : ridx_main_v0 (ix3 b l e) k = ix2 e k :=
  funext fun a => Fin.ext (by match a with | ⟨0, _⟩ => rfl | ⟨1, _⟩ => rfl)
theorem idx_v1_v2 (b : Fin 4) (l : Fin 2048) (e : Fin 1024) : idx_main_v1 (idx_main_v2 (ix3 b l e)) = ix1 e :=
  funext fun a => Fin.ext (by match a with | ⟨0, _⟩ => rfl)

/-- [4, 2048, 16, 64] is [4, 2048, 1024] with the features split: (b, i, h, d) is (b, i, 64 h + d). -/
theorem idx_v4 (b : Fin 4) (i : Fin 2048) (h : Fin 16) (d : Fin 64) : idx_main_v4 (ix4 b i h d) = ix3 b i (col h d) :=
  funext fun a => Fin.ext (by
    have hb := b.isLt; have hi := i.isLt; have hh := h.isLt; have hd := d.isLt
    match a with
    | ⟨0, _⟩ => show (((b.val * 2048 + i.val) * 16 + h.val) * 64 + d.val) / 2097152 = b.val; omega
    | ⟨1, _⟩ => show (((b.val * 2048 + i.val) * 16 + h.val) * 64 + d.val) / 1024 % 2048 = i.val; omega
    | ⟨2, _⟩ => show (((b.val * 2048 + i.val) * 16 + h.val) * 64 + d.val) % 1024 = h.val * 64 + d.val; omega)
theorem idx_v5 (b : Fin 4) (h : Fin 16) (i : Fin 2048) (d : Fin 64) : idx_main_v5 (ix4 b h i d) = ix4 b i h d :=
  funext fun a => Fin.ext (by match a with | ⟨0, _⟩ => rfl | ⟨1, _⟩ => rfl | ⟨2, _⟩ => rfl | ⟨3, _⟩ => rfl)

theorem lidx_v18 (b : Fin 4) (h : Fin 16) (i j : Fin 2048) (k : Fin 64) : lidx_main_v18 (ix4 b h i j) k = ix4 b h i k :=
  funext fun a => Fin.ext (by match a with | ⟨0, _⟩ => rfl | ⟨1, _⟩ => rfl | ⟨2, _⟩ => rfl | ⟨3, _⟩ => rfl)
theorem ridx_v18 (b : Fin 4) (h : Fin 16) (i j : Fin 2048) (k : Fin 64) : ridx_main_v18 (ix4 b h i j) k = ix4 b h j k :=
  funext fun a => Fin.ext (by match a with | ⟨0, _⟩ => rfl | ⟨1, _⟩ => rfl | ⟨2, _⟩ => rfl | ⟨3, _⟩ => rfl)

theorem idx_v24_v25 (b : Fin 4) (h : Fin 16) (i j : Fin 2048) : idx_main_v24 (idx_main_v25 (ix4 b h i j)) = ix3 b h i :=
  funext fun a => Fin.ext (by match a with | ⟨0, _⟩ => rfl | ⟨1, _⟩ => rfl | ⟨2, _⟩ => rfl)
theorem idx_v28 (b : Fin 4) (h : Fin 16) (i k : Fin 2048) : idx_main_v28 (ix3 b h i) k = ix4 b h i k :=
  funext fun a => Fin.ext (by match a with | ⟨0, _⟩ => rfl | ⟨1, _⟩ => rfl | ⟨2, _⟩ => rfl | ⟨3, _⟩ => rfl)
theorem idx_v29_v30 (b : Fin 4) (h : Fin 16) (i j : Fin 2048) : idx_main_v29 (idx_main_v30 (ix4 b h i j)) = ix3 b h i :=
  funext fun a => Fin.ext (by match a with | ⟨0, _⟩ => rfl | ⟨1, _⟩ => rfl | ⟨2, _⟩ => rfl)

theorem lidx_v32 (b : Fin 4) (h : Fin 16) (i k : Fin 2048) (d : Fin 64) : lidx_main_v32 (ix4 b h i d) k = ix4 b h i k :=
  funext fun a => Fin.ext (by match a with | ⟨0, _⟩ => rfl | ⟨1, _⟩ => rfl | ⟨2, _⟩ => rfl | ⟨3, _⟩ => rfl)
theorem ridx_v32 (b : Fin 4) (h : Fin 16) (i k : Fin 2048) (d : Fin 64) : ridx_main_v32 (ix4 b h i d) k = ix4 b h k d :=
  funext fun a => Fin.ext (by match a with | ⟨0, _⟩ => rfl | ⟨1, _⟩ => rfl | ⟨2, _⟩ => rfl | ⟨3, _⟩ => rfl)

theorem idx_v33 (b : Fin 4) (l : Fin 2048) (h : Fin 16) (d : Fin 64) : idx_main_v33 (ix4 b l h d) = ix4 b h l d :=
  funext fun a => Fin.ext (by match a with | ⟨0, _⟩ => rfl | ⟨1, _⟩ => rfl | ⟨2, _⟩ => rfl | ⟨3, _⟩ => rfl)
/-- [4, 2048, 1024] is [4, 2048, 16, 64] with the heads side by side: (b, l, e) is (b, l, e / 64, e % 64). -/
theorem idx_v34 (b : Fin 4) (l : Fin 2048) (e : Fin 1024) : idx_main_v34 (ix3 b l e) = ix4 b l (headOf e) (laneOf e) :=
  funext fun a => Fin.ext (by
    have hb := b.isLt; have hl := l.isLt; have he := e.isLt
    match a with
    | ⟨0, _⟩ => show ((b.val * 2048 + l.val) * 1024 + e.val) / 2097152 = b.val; omega
    | ⟨1, _⟩ => show ((b.val * 2048 + l.val) * 1024 + e.val) / 1024 % 2048 = l.val; omega
    | ⟨2, _⟩ => show ((b.val * 2048 + l.val) * 1024 + e.val) / 64 % 16 = e.val / 64; omega
    | ⟨3, _⟩ => show ((b.val * 2048 + l.val) * 1024 + e.val) % 64 = e.val % 64; omega)

theorem lidx_v35 (b : Fin 4) (l : Fin 2048) (f k : Fin 1024) : lidx_main_v35 (ix3 b l f) k = ix3 b l k :=
  funext fun a => Fin.ext (by match a with | ⟨0, _⟩ => rfl | ⟨1, _⟩ => rfl | ⟨2, _⟩ => rfl)
theorem ridx_v35 (b : Fin 4) (l : Fin 2048) (f k : Fin 1024) : ridx_main_v35 (ix3 b l f) k = ix2 f k :=
  funext fun a => Fin.ext (by match a with | ⟨0, _⟩ => rfl | ⟨1, _⟩ => rfl)
theorem idx_v36_v37 (b : Fin 4) (l : Fin 2048) (f : Fin 1024) : idx_main_v36 (idx_main_v37 (ix3 b l f)) = ix1 f :=
  funext fun a => Fin.ext (by match a with | ⟨0, _⟩ => rfl)

/-! ## The linear layers and their split into heads -/

/-- A linear layer's stage, at (b, l, e). -/
theorem proj_at (x0 : A3) (x1 : A2) (x2 : A1) (b : Fin 4) (l : Fin 2048) (e : Fin 1024) :
    val_main_v3 (F := Ideal) x0 x1 x2 (ix3 b l e) = proj (readAct x0) (readWt x1) (readBias x2) b l e := by
  rw [val_main_v3_apply, val_main_v0_apply, val_main_v2_apply, val_main_v1_apply, idx_v1_v2]
  refine congrArg (· + x2 (ix1 e)) (Finset.sum_congr rfl fun k _ => ?_)
  rw [lidx_v0, ridx_v0]
  rfl

/-- The layer split into heads, at (b, h, i, d): position i, feature 64 h + d. -/
theorem heads_at (x0 : A3) (x1 : A2) (x2 : A1) (b : Fin 4) (h : Fin 16) (i : Fin 2048) (d : Fin 64) :
    val_main_v5 (F := Ideal) x0 x1 x2 (ix4 b h i d) = proj (readAct x0) (readWt x1) (readBias x2) b i (col h d) := by
  rw [val_main_v5_apply, val_main_v4_apply, idx_v5, idx_v4, proj_at]

/-- The three layers are one function of their three arguments. -/
theorem v11_eq_v5 (x0 : A3) (x3 : A2) (x4 : A1) : val_main_v11 (F := Ideal) x0 x3 x4 = val_main_v5 (F := Ideal) x0 x3 x4 := rfl
theorem v17_eq_v5 (x0 : A3) (x5 : A2) (x6 : A1) : val_main_v17 (F := Ideal) x0 x5 x6 = val_main_v5 (F := Ideal) x0 x5 x6 := rfl

/-! ## Scores and softmax -/

section
variable (x0 : A3) (x1 : A2) (x2 : A1) (x3 : A2) (x4 : A1)

/-- The scaled scores' stage, at (b, h, i, j). -/
theorem score_at (b : Fin 4) (h : Fin 16) (i j : Fin 2048) :
    val_main_v20 (F := Ideal) x0 x1 x2 x3 x4 (ix4 b h i j)
      = score (proj (readAct x0) (readWt x1) (readBias x2)) (proj (readAct x0) (readWt x3) (readBias x4)) b h i j := by
  rw [val_main_v20_apply, val_main_v18_apply, val_main_v19_apply, val_main_cst_apply, v11_eq_v5]
  refine congrArg (· * quarter) (Finset.sum_congr rfl fun k _ => ?_)
  rw [lidx_v18, ridx_v18, heads_at, heads_at]

/-- The row of scores of query i in head h of batch b. -/
theorem score_row (b : Fin 4) (h : Fin 16) (i : Fin 2048) :
    (fun j : Fin 2048 => val_main_v20 (F := Ideal) x0 x1 x2 x3 x4 (ix4 b h i j))
      = score (proj (readAct x0) (readWt x1) (readBias x2)) (proj (readAct x0) (readWt x3) (readBias x4)) b h i :=
  funext fun j => score_at x0 x1 x2 x3 x4 b h i j

/-- The result index (b, h, i) with key k put back on the reduced axis is (b, h, i, k). -/
theorem lift_keys (hr : S4x16x2048x2048.Reduces [3] S4x16x2048) (b : Fin 4) (h : Fin 16) (i : Fin 2048)
    (k : Fin (S4x16x2048x2048.size 3)) : hr.lift (ix3 b h i) k = ix4 b h i (⟨k.val, k.isLt⟩ : Fin 2048) := by
  funext a; apply Fin.ext
  match a with | ⟨0, _⟩ => rfl | ⟨1, _⟩ => rfl | ⟨2, _⟩ => rfl | ⟨3, _⟩ => rfl

/-- A host reduction over the keys with a maximum body, seeded with −∞, is the row's maximum. -/
theorem reduce_max_at (y : (⟨S4x16x2048x2048, .f32⟩ : BufTy).Contents (Elt Ideal)) (b : Fin 4) (h : Fin 16) (i : Fin 2048) :
    Host.reduce (FloatOps.maximumf (F := Ideal) (φ := .f32)) y (val_main_cst_0 (F := Ideal)) reducesTo_S4x16x2048x2048_S4x16x2048_d3 h_S_ (ix3 b h i)
      = rowMax (fun j : Fin 2048 => y (ix4 b h i j)) := by
  have hr : S4x16x2048x2048.Reduces [3] S4x16x2048 := by decide
  rw [Host.reduce_eq_fold_single (FloatOps.maximumf (F := Ideal) (φ := .f32)) y _ reducesTo_S4x16x2048x2048_S4x16x2048_d3 hr h_S_]
  have hf : (y ∘ hr.lift (ix3 b h i)) = fun k : Fin 2048 => y (ix4 b h i k) :=
    funext fun k => congrArg y (lift_keys hr b h i k)
  exact congrArg (fun f => Finset.fold max (Ideal.ofBits .f32 0xFF800000#32) f (Finset.univ : Finset (Fin 2048))) hf

/-- The row maximum's stage, at (b, h, i): the maximum of −∞ and the reduction is the reduction. -/
theorem max_at (b : Fin 4) (h : Fin 16) (i : Fin 2048) :
    val_main_v23 (F := Ideal) x0 x1 x2 x3 x4 (ix3 b h i)
      = rowMax (fun j : Fin 2048 => val_main_v20 (F := Ideal) x0 x1 x2 x3 x4 (ix4 b h i j)) := by
  rw [val_main_v23_apply, val_main_v22_apply, val_main_cst_1_apply]
  unfold val_main_v21
  generalize val_main_v20 (F := Ideal) x0 x1 x2 x3 x4 = y
  rw [reduce_max_at]
  exact max_negInf_rowMax _

/-- The exponentials' stage, at (b, h, i, j). -/
theorem exp_at (b : Fin 4) (h : Fin 16) (i j : Fin 2048) :
    val_main_v27 (F := Ideal) x0 x1 x2 x3 x4 (ix4 b h i j)
      = expShift (fun j' : Fin 2048 => val_main_v20 (F := Ideal) x0 x1 x2 x3 x4 (ix4 b h i j')) j := by
  rw [val_main_v27_apply, val_main_v26_apply, val_main_v25_apply, val_main_v24_apply, idx_v24_v25, max_at]
  rfl

/-- The row sum's stage, at (b, h, i): from zero, the sum over the keys. -/
theorem sum_at (b : Fin 4) (h : Fin 16) (i : Fin 2048) :
    val_main_v28 (F := Ideal) x0 x1 x2 x3 x4 (ix3 b h i)
      = ∑ j : Fin 2048, expShift (fun j' : Fin 2048 => val_main_v20 (F := Ideal) x0 x1 x2 x3 x4 (ix4 b h i j')) j := by
  rw [val_main_v28_apply, val_main_cst_2_apply, Ideal.ofBits_def, Ideal.ofBits_zero_f32, zero_add]
  refine Finset.sum_congr rfl fun k _ => ?_
  rw [idx_v28, exp_at]

/-- The softmax weights' stage, at (b, h, i, j). -/
theorem softmax_at (b : Fin 4) (h : Fin 16) (i j : Fin 2048) :
    val_main_v31 (F := Ideal) x0 x1 x2 x3 x4 (ix4 b h i j)
      = softmax (score (proj (readAct x0) (readWt x1) (readBias x2)) (proj (readAct x0) (readWt x3) (readBias x4)) b h i) j := by
  rw [val_main_v31_apply, val_main_v30_apply, val_main_v29_apply, idx_v29_v30, sum_at, exp_at, score_row]
  rfl

end

/-! ## The weighted values, the heads merged, and the last layer -/

section
variable (x0 : A3) (x1 : A2) (x2 : A1) (x3 : A2) (x4 : A1) (x5 : A2) (x6 : A1)

/-- The attention output's stage, at (b, h, i, d). -/
theorem attn_at (b : Fin 4) (h : Fin 16) (i : Fin 2048) (d : Fin 64) :
    val_main_v32 (F := Ideal) x0 x1 x2 x3 x4 x5 x6 (ix4 b h i d)
      = attn (proj (readAct x0) (readWt x1) (readBias x2)) (proj (readAct x0) (readWt x3) (readBias x4))
          (proj (readAct x0) (readWt x5) (readBias x6)) b i h d := by
  rw [val_main_v32_apply, v17_eq_v5]
  refine Finset.sum_congr rfl fun k _ => ?_
  rw [lidx_v32, ridx_v32, softmax_at, heads_at]

/-- The merged heads' stage, at (b, l, e). -/
theorem merged_at (b : Fin 4) (l : Fin 2048) (e : Fin 1024) :
    val_main_v34 (F := Ideal) x0 x1 x2 x3 x4 x5 x6 (ix3 b l e)
      = merged (proj (readAct x0) (readWt x1) (readBias x2)) (proj (readAct x0) (readWt x3) (readBias x4))
          (proj (readAct x0) (readWt x5) (readBias x6)) b l e := by
  rw [val_main_v34_apply, val_main_v33_apply, idx_v34, idx_v33, attn_at]
  rfl

end

/-- The last stage, at (b, l, f), is the specification of the nine arrays. -/
theorem out_at (x0 : A3) (x1 : A2) (x2 : A1) (x3 : A2) (x4 : A1) (x5 : A2) (x6 : A1) (x7 : A2) (x8 : A1)
    (b : Fin 4) (l : Fin 2048) (f : Fin 1024) :
    val_main_v38 (F := Ideal) x0 x1 x2 x3 x4 x5 x6 x7 x8 (ix3 b l f)
      = G (readAct x0) (readWt x1) (readBias x2) (readWt x3) (readBias x4) (readWt x5) (readBias x6) (readWt x7) (readBias x8) b l f := by
  rw [val_main_v38_apply, val_main_v35_apply, val_main_v37_apply, val_main_v36_apply, idx_v36_v37]
  refine congrArg (· + x8 (ix1 f)) (Finset.sum_congr rfl fun k _ => ?_)
  rw [lidx_v35, ridx_v35, merged_at]
  rfl

/-- The same as one array: the last stage is the specification laid out over [4, 2048, 1024]. -/
theorem out_eq (x0 : A3) (x1 : A2) (x2 : A1) (x3 : A2) (x4 : A1) (x5 : A2) (x6 : A1) (x7 : A2) (x8 : A1) :
    val_main_v38 (F := Ideal) x0 x1 x2 x3 x4 x5 x6 x7 x8
      = actArray (G (readAct x0) (readWt x1) (readBias x2) (readWt x3) (readBias x4) (readWt x5) (readBias x6) (readWt x7) (readBias x8)) := by
  funext i
  obtain ⟨b, l, f, rfl⟩ : ∃ (b : Fin 4) (l : Fin 2048) (f : Fin 1024), i = ix3 b l f := ⟨i 0, i 1, i 2, eq_ix3 i⟩
  rw [out_at, actArray_ix3]

/-- THE REFERENCE IS THE SPECIFICATION: the run's result term, at (b, l, f), is `G` of the nine argument arrays read
    by coordinates. -/
theorem ref_is_spec (m : (ℓ : Loc nD τ sig) → Buf (Elt Ideal) ℓ) (c : Dev nD) (b : Fin 4) (l : Fin 2048) (f : Fin 1024) :
    (Cert.ReferenceIdeal.Value.res_main_v38 (F := Ideal) m c : A3) (ix3 b l f)
      = G (readAct (m ((c.tc : Thread nD τ).loc main_arg0))) (readWt (m ((c.tc : Thread nD τ).loc main_arg1)))
          (readBias (m ((c.tc : Thread nD τ).loc main_arg2))) (readWt (m ((c.tc : Thread nD τ).loc main_arg3)))
          (readBias (m ((c.tc : Thread nD τ).loc main_arg4))) (readWt (m ((c.tc : Thread nD τ).loc main_arg5)))
          (readBias (m ((c.tc : Thread nD τ).loc main_arg6))) (readWt (m ((c.tc : Thread nD τ).loc main_arg7)))
          (readBias (m ((c.tc : Thread nD τ).loc main_arg8))) b l f := by
  rw [val_main_v38_eq]
  exact out_at _ _ _ _ _ _ _ _ _ b l f

/-- The same as one array, in the form two runs' results are compared in. -/
theorem ref_eq_spec (m : (ℓ : Loc nD τ sig) → Buf (Elt Ideal) ℓ) (c : Dev nD) :
    Cert.ReferenceIdeal.Value.res_main_v38 (F := Ideal) m c
      = actArray (G (readAct (m ((c.tc : Thread nD τ).loc main_arg0))) (readWt (m ((c.tc : Thread nD τ).loc main_arg1)))
          (readBias (m ((c.tc : Thread nD τ).loc main_arg2))) (readWt (m ((c.tc : Thread nD τ).loc main_arg3)))
          (readBias (m ((c.tc : Thread nD τ).loc main_arg4))) (readWt (m ((c.tc : Thread nD τ).loc main_arg5)))
          (readBias (m ((c.tc : Thread nD τ).loc main_arg6))) (readWt (m ((c.tc : Thread nD τ).loc main_arg7)))
          (readBias (m ((c.tc : Thread nD τ).loc main_arg8)))) := by
  rw [val_main_v38_eq]
  exact out_eq _ _ _ _ _ _ _ _ _

end Cert.Attn.Ref

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.BodyValueLinear.lean ====
/-
  The two linear layers' bodies read at an entry, on the extended reals.

  Each of the two linear kernels stores, in one whole-tile store, the product of its activation tile `a` (512 rows)
  with the whole weight matrix `w` plus the bias row `β`. On the extended reals a change of float format is the
  identity, a shape cast to the same shape is the identity, the matrix product accumulated into zero is the plain
  sum over the contracted axis, and the bias row broadcast over the 512 rows reads its one row. So the tile the
  body leaves is, at row `r` and column `n`,   Σₖ a[r, k] · w[k, n] + β[0, n].
-/
import proofs.«107256_j17025250361728_2_alg».proof.Proof.Region0
import proofs.«107256_j17025250361728_2_alg».proof.Proof.Region2
import proofs.«107256_j17025250361728_2_alg».proof.Proof.LibPlainMatmul
import Idealize.ShloMosaic.Lib.ValueIdx
import Idealize.ShloMosaic.Lib.ValueLayout
import Idealize.ShloMosaic.Lib.Pipeline.Value

noncomputable section

namespace Cert.Attn.Body

open Idealize.ShloMosaic Idealize.ShloMosaic.ValueIdx
open Cert.KernelIdeal Cert.KernelIdeal.Gen

/-- The all-zero offsets of a whole-buffer rectangle of rank 2, as the constant function. -/
theorem zeros2 : (![0, 0] : Fin 2 → Nat) = fun _ => 0 := funext fun a => by fin_cases a <;> rfl

/-! ## The two products' operand coordinates

Both dimension-number records contract the left operand's axis 1 with the right operand's axis 0 and have no batch
axis: at output `(y, j)` and contraction coordinate `k` the operands are read at `(y, k)` and `(k, j)`. -/

theorem dotQKV_l0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
theorem dotQKV_l1 (i : S512x3072.Idx) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
theorem dotQKV_r0 (i : S512x3072.Idx) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
theorem dotQKV_r1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

theorem dotOut_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem dotOut_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotOut_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotOut_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The payloads at an entry -/

/-- The fused query/key/value projection's payload at row `r`, column `n`. -/
theorem k0_pay1_apply (a : Vec Ideal S512x1024 .f32) (w : Vec Ideal S1024x3072 .bf16) (β : Vec Ideal S1x3072 .f32)
    (r : Fin 512) (n : Fin 3072) :
    k0_pay1 (F := Ideal) a w β (ix2 r n) = (∑ k : Fin 1024, a (ix2 r k) * w (ix2 k n)) + β (ix2 (0 : Fin 1) n) := by
  unfold k0_pay1
  simp only [shapeCast_self]
  refine congrArg₂ (fun s b : EReal => s + b) ?_ ?_
  · exact Cert.EdgeScore.Lib.matmul_zero_ix2_apply dot_S512x1024_S1024x3072_S512x3072_1_0_0_1_n_n rfl rfl dotQKV_l0 dotQKV_l1 dotQKV_r0 dotQKV_r1 none _ w r n
  · exact broadcastTo_1b_ab_apply β _ r n

/-- The output projection's payload at row `r`, column `n`. -/
theorem k2_pay1_apply (a : Vec Ideal S512x1024 .bf16) (w : Vec Ideal S1024x1024 .bf16) (β : Vec Ideal S1x1024 .f32)
    (r : Fin 512) (n : Fin 1024) :
    k2_pay1 (F := Ideal) a w β (ix2 r n) = (∑ k : Fin 1024, a (ix2 r k) * w (ix2 k n)) + β (ix2 (0 : Fin 1) n) := by
  unfold k2_pay1
  simp only [shapeCast_self]
  refine congrArg₂ (fun s b : EReal => s + b) ?_ ?_
  · exact Cert.EdgeScore.Lib.matmul_zero_ix2_apply dot_S512x1024_S1024x1024_S512x1024_1_0_0_1_n_n rfl rfl dotOut_l0 dotOut_l1 dotOut_r0 dotOut_r1 none a w r n
  · exact broadcastTo_1b_ab_apply β _ r n

/-! ## What each body leaves in its output tile, at an entry -/

/-- The fused projection's output tile: one whole-tile store of the payload over whole-tile loads. -/
theorem out0_3_apply (x0 : Vec Ideal S512x1024 .f32) (x1 : Vec Ideal S1024x3072 .bf16) (x2 : Vec Ideal S1x3072 .f32)
    (r : Fin 512) (n : Fin 3072) :
    out0_3 (F := Ideal) x0 x1 x2 (ix2 r n) = (∑ k : Fin 1024, x0 (ix2 r k) * x1 (ix2 k n)) + x2 (ix2 (0 : Fin 1) n) := by
  unfold out0_3
  rw [View.canon_unit_zero zeros2]
  simp only [View.ld_unit_zero (S := S512x1024) zeros2, View.ld_unit_zero (S := S1024x3072) zeros2,
    View.ld_unit_zero (S := S1x3072) zeros2]
  exact k0_pay1_apply x0 x1 x2 r n

/-- The output projection's output tile, likewise. -/
theorem out2_3_apply (x0 : Vec Ideal S512x1024 .bf16) (x1 : Vec Ideal S1024x1024 .bf16) (x2 : Vec Ideal S1x1024 .f32)
    (r : Fin 512) (n : Fin 1024) :
    out2_3 (F := Ideal) x0 x1 x2 (ix2 r n) = (∑ k : Fin 1024, x0 (ix2 r k) * x1 (ix2 k n)) + x2 (ix2 (0 : Fin 1) n) := by
  unfold out2_3
  rw [View.canon_unit_zero zeros2]
  simp only [View.ld_unit_zero (S := S512x1024) zeros2, View.ld_unit_zero (S := S1024x1024) zeros2,
    View.ld_unit_zero (S := S1x1024) zeros2]
  exact k2_pay1_apply x0 x1 x2 r n

end Cert.Attn.Body

end
-- ==== Proof.RegionValueLinear.lean ====
/-
  The two linear regions' output arrays at the exact instance. Each region writes its output array tile by tile;
  tile t is the linear layer of the activations' tile t, the whole weight matrix and the bias row. Since a tile of the
  linear layer of the whole arrays is the linear layer of the tile, the array ends holding the linear layer of the
  arrays as the region found them: entry (r, n) is the sum over k of a(r, k) · w(k, n), plus β(0, n).
-/
import proofs.«107256_j17025250361728_2_alg».proof.Proof.Region0
import proofs.«107256_j17025250361728_2_alg».proof.Proof.Region2
import proofs.«107256_j17025250361728_2_alg».proof.Proof.BodyValueLinear
import Idealize.ShloMosaic.Lib.Pipeline.Value
import Idealize.ShloMosaic.Lib.ValueIdx

set_option maxRecDepth 16384

noncomputable section

namespace Cert.Attn.Body

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## Region 0: the output array as one function of the three input arrays -/

/-- The linear layer on whole arrays: entry (r, n) is the row r of the activations against column n of the weights,
    plus the bias at n. -/
def linQKV (a : S8192x1024.Idx → EReal) (w : S1024x3072.Idx → EReal) (β : S1x3072.Idx → EReal) : S8192x3072.Idx → EReal :=
  fun i => (∑ k : Fin 1024, a (ix2 (i 0) k) * w (ix2 k (i 1))) + β (ix2 (0 : Fin 1) (i 1))

theorem linQKV_ix2 (a : S8192x1024.Idx → EReal) (w : S1024x3072.Idx → EReal) (β : S1x3072.Idx → EReal) (r : Fin 8192) (n : Fin 3072) :
    linQKV a w β (ix2 r n) = (∑ k : Fin 1024, a (ix2 r k) * w (ix2 k n)) + β (ix2 (0 : Fin 1) n) := rfl

/-- The printed index maps over the grid: the activations' and the output's tile at point t is tile t of the rows;
    the weights and the bias row are the same whole block at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A tile of the linear layer of whole arrays is the linear layer of the tiles: at point t, entry (r, n) of the tile
    reads row 512 t + r of the activations, the whole weight column n and the bias at n. -/
theorem tile0 (a : S8192x1024.Idx → EReal) (w : S1024x3072.Idx → EReal) (β : S1x3072.Idx → EReal) (t : Fin cfg0.N) (r : Fin 512) (n : Fin 3072) :
    (∑ k : Fin 1024, a (((cfg0.win 0).blk t).view.emb (ix2 r k)) * w (((cfg0.win 1).blk t).view.emb (ix2 k n)))
        + β (((cfg0.win 2).blk t).view.emb (ix2 (0 : Fin 1) n))
      = linQKV a w β (((cfg0.win 3).blk t).view.emb (ix2 r n)) := by
  obtain ⟨e0, e1, e2, e3, e4, e5, e6, e7⟩ := idx_facts0 t
  unfold linQKV
  have hr : r.val < 512 := r.isLt
  have hn : n.val < 3072 := n.isLt
  refine congrArg₂ (· + ·) (Finset.sum_congr rfl fun k _ => congrArg₂ (· * ·) (congrArg a ?_) (congrArg w ?_)) (congrArg β ?_)
  · funext x; apply Fin.ext
    match x with
    | ⟨0, _⟩ => show win0_0.index t (0 : Fin 2) * 512 + 1 * r.val = win0_3.index t (0 : Fin 2) * 512 + 1 * r.val; omega
    | ⟨1, _⟩ => show win0_0.index t (1 : Fin 2) * 1024 + 1 * k.val = k.val; omega
  · funext x; apply Fin.ext
    match x with
    | ⟨0, _⟩ => show win0_1.index t (0 : Fin 2) * 1024 + 1 * k.val = k.val; omega
    | ⟨1, _⟩ => show win0_1.index t (1 : Fin 2) * 3072 + 1 * n.val = win0_3.index t (1 : Fin 2) * 3072 + 1 * n.val; omega
  · funext x; apply Fin.ext
    match x with
    | ⟨0, _⟩ => show win0_2.index t (0 : Fin 2) * 1 + 1 * 0 = 0; omega
    | ⟨1, _⟩ => show win0_2.index t (1 : Fin 2) * 3072 + 1 * n.val = win0_3.index t (1 : Fin 2) * 3072 + 1 * n.val; omega

/-- What point t writes back is tile t of the linear layer of the arrays as the region finds them. -/
theorem flushed0_eq (t : Fin cfg0.N) :
    (dat0 (F := Ideal) V c).flushed 3 t
      = ((cfg0.win 3).blk t).view.read (Elt Ideal) (linQKV (V c main_v0) (V c main_v5) (V c main_v7)) := by
  show (cfg0.win 3).cut (grid0.coords t) ((dat0 (F := Ideal) V c).after 3 t) = _
  rw [after0_3]
  funext j
  obtain ⟨r, n, rfl⟩ : ∃ (r : Fin 512) (n : Fin 3072), j = ix2 r n := ⟨j 0, j 1, eq_ix2 j⟩
  show out0_3 (F := Ideal) (iblk0 V c 0 t) (iblk0 V c 1 t) (iblk0 V c 2 t) (ix2 r n)
    = linQKV (V c main_v0) (V c main_v5) (V c main_v7) (((cfg0.win 3).blk t).view.emb (ix2 r n))
  rw [out0_3_apply]
  exact tile0 (V c main_v0) (V c main_v5) (V c main_v7) t r n

/-- An index of the output array is in point t's tile iff each coordinate is in the tile's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v8).slice (win0_3.rect t)).set ↔ _
  rw [View.set_slice_whole, Rect.mem_set_unit]
  exact Iff.rfl

/-- The sixteen tiles cover the output array: row r lies in tile r / 512. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hN : grid0.N = 16 := N_0
  refine ⟨⟨(i 0).val / 512, by show (i 0).val / 512 < grid0.N; omega⟩, flush0_3 _, ?_⟩
  rw [mem_blk0]
  obtain ⟨e0, e1, e2, e3, e4, e5, e6, e7⟩ := idx_facts0 ⟨(i 0).val / 512, by show (i 0).val / 512 < grid0.N; omega⟩
  intro a
  match a with
  | ⟨0, _⟩ => show win0_3.index _ (0 : Fin 2) * 512 ≤ (i 0).val ∧ (i 0).val < win0_3.index _ (0 : Fin 2) * 512 + 512; rw [e6]; show (i 0).val / 512 * 512 ≤ (i 0).val ∧ (i 0).val < (i 0).val / 512 * 512 + 512; omega
  | ⟨1, _⟩ => show win0_3.index _ (1 : Fin 2) * 3072 ≤ (i 1).val ∧ (i 1).val < win0_3.index _ (1 : Fin 2) * 3072 + 3072; rw [e7]; omega

/-- THE ARRAY after the region: the linear layer of the arrays as the region finds them. -/
theorem region0_array : (dat0 (F := Ideal) V c).arrAt 3 cfg0.N = linQKV (V c main_v0) (V c main_v5) (V c main_v7) :=
  (dat0 (F := Ideal) V c).arrAt_eq_of_cover 3 _ (fun t _ => flushed0_eq V c t) (cover0)

/-- The same, at an entry. -/
theorem region0_value (r : Fin 8192) (n : Fin 3072) :
    (dat0 (F := Ideal) V c).arrAt 3 cfg0.N (ix2 r n) = linQKV (V c main_v0) (V c main_v5) (V c main_v7) (ix2 r n) := by
  rw [region0_array]

/-! ## Region 2: the output array as one function of the three input arrays -/

/-- The linear layer on whole arrays: entry (r, n) is the row r of the activations against column n of the weights,
    plus the bias at n. -/
def linOut (a : S8192x1024.Idx → EReal) (w : S1024x1024.Idx → EReal) (β : S1x1024.Idx → EReal) : S8192x1024.Idx → EReal :=
  fun i => (∑ k : Fin 1024, a (ix2 (i 0) k) * w (ix2 k (i 1))) + β (ix2 (0 : Fin 1) (i 1))

theorem linOut_ix2 (a : S8192x1024.Idx → EReal) (w : S1024x1024.Idx → EReal) (β : S1x1024.Idx → EReal) (r : Fin 8192) (n : Fin 1024) :
    linOut a w β (ix2 r n) = (∑ k : Fin 1024, a (ix2 r k) * w (ix2 k n)) + β (ix2 (0 : Fin 1) n) := rfl

/-- The printed index maps over the grid: the activations' and the output's tile at point t is tile t of the rows;
    the weights and the bias row are the same whole block at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A tile of the linear layer of whole arrays is the linear layer of the tiles: at point t, entry (r, n) of the tile
    reads row 512 t + r of the activations, the whole weight column n and the bias at n. -/
theorem tile2 (a : S8192x1024.Idx → EReal) (w : S1024x1024.Idx → EReal) (β : S1x1024.Idx → EReal) (t : Fin cfg2.N) (r : Fin 512) (n : Fin 1024) :
    (∑ k : Fin 1024, a (((cfg2.win 0).blk t).view.emb (ix2 r k)) * w (((cfg2.win 1).blk t).view.emb (ix2 k n)))
        + β (((cfg2.win 2).blk t).view.emb (ix2 (0 : Fin 1) n))
      = linOut a w β (((cfg2.win 3).blk t).view.emb (ix2 r n)) := by
  obtain ⟨e0, e1, e2, e3, e4, e5, e6, e7⟩ := idx_facts2 t
  unfold linOut
  have hr : r.val < 512 := r.isLt
  have hn : n.val < 1024 := n.isLt
  refine congrArg₂ (· + ·) (Finset.sum_congr rfl fun k _ => congrArg₂ (· * ·) (congrArg a ?_) (congrArg w ?_)) (congrArg β ?_)
  · funext x; apply Fin.ext
    match x with
    | ⟨0, _⟩ => show win2_0.index t (0 : Fin 2) * 512 + 1 * r.val = win2_3.index t (0 : Fin 2) * 512 + 1 * r.val; omega
    | ⟨1, _⟩ => show win2_0.index t (1 : Fin 2) * 1024 + 1 * k.val = k.val; omega
  · funext x; apply Fin.ext
    match x with
    | ⟨0, _⟩ => show win2_1.index t (0 : Fin 2) * 1024 + 1 * k.val = k.val; omega
    | ⟨1, _⟩ => show win2_1.index t (1 : Fin 2) * 1024 + 1 * n.val = win2_3.index t (1 : Fin 2) * 1024 + 1 * n.val; omega
  · funext x; apply Fin.ext
    match x with
    | ⟨0, _⟩ => show win2_2.index t (0 : Fin 2) * 1 + 1 * 0 = 0; omega
    | ⟨1, _⟩ => show win2_2.index t (1 : Fin 2) * 1024 + 1 * n.val = win2_3.index t (1 : Fin 2) * 1024 + 1 * n.val; omega

/-- What point t writes back is tile t of the linear layer of the arrays as the region finds them. -/
theorem flushed2_eq (t : Fin cfg2.N) :
    (dat2 (F := Ideal) V c).flushed 3 t
      = ((cfg2.win 3).blk t).view.read (Elt Ideal) (linOut (V c main_v11) (V c main_v13) (V c main_v14)) := by
  show (cfg2.win 3).cut (grid2.coords t) ((dat2 (F := Ideal) V c).after 3 t) = _
  rw [after2_3]
  funext j
  obtain ⟨r, n, rfl⟩ : ∃ (r : Fin 512) (n : Fin 1024), j = ix2 r n := ⟨j 0, j 1, eq_ix2 j⟩
  show out2_3 (F := Ideal) (iblk2 V c 0 t) (iblk2 V c 1 t) (iblk2 V c 2 t) (ix2 r n)
    = linOut (V c main_v11) (V c main_v13) (V c main_v14) (((cfg2.win 3).blk t).view.emb (ix2 r n))
  rw [out2_3_apply]
  exact tile2 (V c main_v11) (V c main_v13) (V c main_v14) t r n

/-- An index of the output array is in point t's tile iff each coordinate is in the tile's range on its axis. -/
theorem mem_blk2 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v15).slice (win2_3.rect t)).set ↔ _
  rw [View.set_slice_whole, Rect.mem_set_unit]
  exact Iff.rfl

/-- The sixteen tiles cover the output array: row r lies in tile r / 512. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : grid2.N = 16 := N_2
  refine ⟨⟨(i 0).val / 512, by show (i 0).val / 512 < grid2.N; omega⟩, flush2_3 _, ?_⟩
  rw [mem_blk2]
  obtain ⟨e0, e1, e2, e3, e4, e5, e6, e7⟩ := idx_facts2 ⟨(i 0).val / 512, by show (i 0).val / 512 < grid2.N; omega⟩
  intro a
  match a with
  | ⟨0, _⟩ => show win2_3.index _ (0 : Fin 2) * 512 ≤ (i 0).val ∧ (i 0).val < win2_3.index _ (0 : Fin 2) * 512 + 512; rw [e6]; show (i 0).val / 512 * 512 ≤ (i 0).val ∧ (i 0).val < (i 0).val / 512 * 512 + 512; omega
  | ⟨1, _⟩ => show win2_3.index _ (1 : Fin 2) * 1024 ≤ (i 1).val ∧ (i 1).val < win2_3.index _ (1 : Fin 2) * 1024 + 1024; rw [e7]; omega

/-- THE ARRAY after the region: the linear layer of the arrays as the region finds them. -/
theorem region2_array : (dat2 (F := Ideal) V c).arrAt 3 cfg2.N = linOut (V c main_v11) (V c main_v13) (V c main_v14) :=
  (dat2 (F := Ideal) V c).arrAt_eq_of_cover 3 _ (fun t _ => flushed2_eq V c t) (cover2)

/-- The same, at an entry. -/
theorem region2_value (r : Fin 8192) (n : Fin 1024) :
    (dat2 (F := Ideal) V c).arrAt 3 cfg2.N (ix2 r n) = linOut (V c main_v11) (V c main_v13) (V c main_v14) (ix2 r n) := by
  rw [region2_array]

end Cert.Attn.Body

end
-- ==== Proof.LibColumn.lean ====
/-
  A column vector's layout operations read at an index: the two forms a reduction that keeps its axis
  (a row sum, a row maximum kept as an `[a, 1]` column) needs and Lib/ValueLayout.lean does not have.
  A one-axis array cast to a column reads the operand at the row; a column broadcast along the lanes reads
  the column at the row, whatever the lane.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`:
    row-major, `(i, u)` is element `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the indices of a one-axis array and of a column -/

/-- The indices of a one-axis shape are its coordinates. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` array is the sum over its `n` coordinates. -/
theorem sum_idx1 {M : Type*} [AddCommMonoid M] {n : ℕ} (f : (⟨1, ![n]⟩ : Shape).Idx → M) :
    ∑ i, f i = ∑ r : Fin n, f (ix1 r) :=
  (Equiv.sum_comp idxEquiv1.symm f).symm

/-- A sum over the indices of an `[n, 1]` column is the sum over its `n` rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibColumn
-- ==== Proof.BodyValueAttention.lean ====
/-
  The attention body read at an entry, on the extended reals.

  At one grid point the body fills the output block `[1, 512, 1024]` head by head from the query block
  `x0 : [1, 512, 1024]`, the key block `x1 : [1, 2048, 1024]` and the value block `x2 : [1, 2048, 1024]`. Head `h` reads
  columns `col h d' = 64 h + d'` of the three blocks. For query row `r` and key row `j` its score is
      s r j = (Σ_{d'} x0[0, r, col h d'] · x1[0, j, col h d']) · ¼,
  the row's weights are the softmax of `s r` (the exponential of the score less the row's maximum, over the sum
  of those exponentials), and the head's output at lane `d` is   Σ_j softmax(s r) j · x2[0, j, col h d],
  stored at column `col h d` of row `r`. On the extended reals every change of float format is the identity, a
  matrix product accumulated into zero is the plain sum over the contracted axis, the lane reductions are the
  fold of `max` from the seed and the plain sum, and the keep-dimension casts and broadcasts read the row's
  value at every lane. The sixteen heads' arithmetic is printed in sixteen cuts of one and the same chain of
  operations; each cut is that chain by unfolding, so one lemma about the chain serves all sixteen, and the
  sixteen stores read back as one function of the block index.
-/
import proofs.«107256_j17025250361728_2_alg».proof.Proof.Region1Body
import proofs.«107256_j17025250361728_2_alg».proof.Proof.Spec
import proofs.«107256_j17025250361728_2_alg».proof.Proof.LibPlainMatmul
import proofs.«107256_j17025250361728_2_alg».proof.Proof.LibColumn
import Idealize.ShloMosaic.Lib.ValueIdx
import Idealize.ShloMosaic.Lib.ValueLayout
import Idealize.ShloMosaic.Lib.Pipeline.Value

set_option maxRecDepth 16384

noncomputable section

namespace Cert.Attn.Body

open Idealize.ShloMosaic Idealize.ShloMosaic.ValueIdx
open Cert.KernelIdeal Cert.KernelIdeal.Gen

/-! ## The two products' operand coordinates

Both records contract the left operand's axis 1 with the right operand's axis 0 and have no batch axis. -/

theorem dotQK_l0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem dotQK_l1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem dotQK_r0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem dotQK_r1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

theorem dotPV_l0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem dotPV_l1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem dotPV_r0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem dotPV_r1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-! ## The lane reductions' source index -/

/-- The source index of a reduction over the lanes of a `[512, 2048]` vector, over row `r` at lane `k`, is `(r, k)`. -/
theorem lift_row (r : Fin 512) (k : Fin 2048) : reduces_S512x2048_S512.lift (ix1 r) k = ix2 r k :=
  funext fun c => Fin.ext (by match c with | ⟨0, _⟩ => rfl | ⟨1, _⟩ => rfl)

/-! ## The chain of one head, operation by operation -/

/-- The scores: the product of the queries with the transposed keys, times the scale. -/
theorem scores_apply (q2 : FVec Ideal S512x64 .bf16) (k2 : FVec Ideal S2048x64 .bf16) (r : Fin 512) (j : Fin 2048) :
    mulf (matmul dot_S512x64_S64x2048_S512x2048_1_0_0_1_n_n none q2
          (transpose S64x2048 [1, 0] k2 transposes_S2048x64_p1_0_S64x2048) (constant (F := Ideal) S512x2048 .f32 0x00000000#32))
        (broadcast S512x2048 (Scalar.ofBits (F := Ideal) .f32 0x3E800000#32)) (ix2 r j)
      = (∑ d' : Fin 64, q2 (ix2 r d') * k2 (ix2 j d')) * quarter := by
  refine congrArg₂ (fun a b : EReal => a * b) ?_ rfl
  refine (Cert.EdgeScore.Lib.matmul_zero_ix2_apply dot_S512x64_S64x2048_S512x2048_1_0_0_1_n_n rfl rfl
    dotQK_l0 dotQK_l1 dotQK_r0 dotQK_r1 none q2 _ r j).trans ?_
  exact Finset.sum_congr rfl fun d' _ =>
    congrArg (fun b : EReal => q2 (ix2 r d') * b) (transpose_ix2_apply k2 transposes_S2048x64_p1_0_S64x2048 d' j)

/-- A row's maximum, kept as a column and broadcast back over the lanes. -/
def laneMax (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- The exponentials of the scores less their row's maximum. -/
def laneExp (s : FVec Ideal S512x2048 .f32) : FVec Ideal S512x2048 .f32 := exp (subf s (laneMax s))

/-- A row's sum, kept as a column and broadcast back over the lanes. -/
def laneSum (e : FVec Ideal S512x2048 .f32) : FVec Ideal S512x2048 .f32 :=
  broadcastTo S512x2048 (shapeCast S512x1 (multiReduction .add [1] S512 e 0x00000000#32 reduces_S512x2048_S512 (.inl rfl) rfl)
    shapeCasts_S512_S512x1) broadcasts_S512x1_S512x2048

/-- At every lane of row `r` the broadcast maximum is the row's maximum: the fold of `max` from the seed. -/
theorem laneMax_apply (s : FVec Ideal S512x2048 .f32) (r : Fin 512) (j : Fin 2048) :
    laneMax s (ix2 r j) = rowMax (fun j' => s (ix2 r j')) := by
  unfold laneMax
  refine (Cert.LibColumn.broadcastTo_a1_ab_apply _ broadcasts_S512x1_S512x2048 r j).trans ?_
  refine (Cert.LibColumn.shapeCast_a_a1_apply _ shapeCasts_S512_S512x1 r 0).trans ?_
  refine (Ideal.multiReduction_maximumf_single s 0xFF800000#32 reduces_S512x2048_S512 (.inl rfl) rfl (ix1 r)).trans ?_
  rw [rowMax_eq_fold_maximumf]
  exact congrArg (fun f : Fin 2048 → EReal => (Finset.univ : Finset (Fin 2048)).fold max (FloatOps.ofBits (F := Ideal) .f32 0xFF800000#32) f)
    (funext fun k => congrArg s (lift_row r k))

/-- The exponential at `(r, j)` is the row's shifted exponential. -/
theorem laneExp_apply (s : FVec Ideal S512x2048 .f32) (r : Fin 512) (j : Fin 2048) :
    laneExp s (ix2 r j) = expShift (fun j' => s (ix2 r j')) j := by
  unfold laneExp expShift
  exact congrArg (fun m : EReal => Ideal.exp (s (ix2 r j) - m)) (laneMax_apply s r j)

/-- At every lane of row `r` the broadcast sum is the row's plain sum. -/
theorem laneSum_apply (e : FVec Ideal S512x2048 .f32) (r : Fin 512) (j : Fin 2048) :
    laneSum e (ix2 r j) = ∑ j' : Fin 2048, e (ix2 r j') := by
  unfold laneSum
  refine (Cert.LibColumn.broadcastTo_a1_ab_apply _ broadcasts_S512x1_S512x2048 r j).trans ?_
  refine (Cert.LibColumn.shapeCast_a_a1_apply _ shapeCasts_S512_S512x1 r 0).trans ?_
  refine (Ideal.multiReduction_add_single e 0x00000000#32 reduces_S512x2048_S512 (.inl rfl) rfl (ix1 r)).trans ?_
  exact Finset.sum_congr rfl fun k _ => congrArg e (lift_row r k)

/-- The weights: the shifted exponentials over their row's sum are the row's softmax. -/
theorem weights_apply (s : FVec Ideal S512x2048 .f32) (r : Fin 512) (j : Fin 2048) :
    divf (laneExp s) (laneSum (laneExp s)) (ix2 r j) = softmax (fun j' => s (ix2 r j')) j := by
  unfold softmax
  refine congrArg₂ Ideal.div (laneExp_apply s r j) ?_
  refine (laneSum_apply (laneExp s) r j).trans ?_
  exact Finset.sum_congr rfl fun j' _ => laneExp_apply s r j'

/-- The weighted values: the product of the weights with the values, under a leading unit axis. -/
theorem weighted_apply (p : FVec Ideal S512x2048 .f32) (v2 : FVec Ideal S2048x64 .bf16) (u : Fin 1) (r : Fin 512) (d : Fin 64) :
    shapeCast S1x512x64 (truncf .bf16 (matmul dot_S512x2048_S2048x64_S512x64_1_0_0_1_n_n none
        (truncf .bf16 p bitsLt_bf16_f32) v2 (constant (F := Ideal) S512x64 .f32 0x00000000#32)) bitsLt_bf16_f32)
        shapeCasts_S512x64_S1x512x64 (ix3 u r d)
      = ∑ j : Fin 2048, p (ix2 r j) * v2 (ix2 j d) :=
  (shapeCast_ab_1ab_apply _ shapeCasts_S512x64_S1x512x64 u r d).trans
    (Cert.EdgeScore.Lib.matmul_zero_ix2_apply dot_S512x2048_S2048x64_S512x64_1_0_0_1_n_n rfl rfl
      dotPV_l0 dotPV_l1 dotPV_r0 dotPV_r1 none (truncf .bf16 p bitsLt_bf16_f32) v2 r d)

/-! ## One head -/

/-- One head's output at query row `r`, lane `d`, from the head's three 64-column slices. -/
def headOut (q : Fin 512 → Fin 64 → EReal) (k v : Fin 2048 → Fin 64 → EReal) (r : Fin 512) (d : Fin 64) : EReal :=
  ∑ j : Fin 2048, softmax (fun j' => (∑ d' : Fin 64, q r d' * k j' d') * quarter) j * v j d

/-- The whole chain, as the first head's payload spells it, over the three slices as variables. -/
theorem head_apply (q : Vec Ideal S1x512x64 .bf16) (k v : Vec Ideal S1x2048x64 .bf16) (u : Fin 1) (r : Fin 512) (d : Fin 64) :
    k1_pay2 (F := Ideal) q k v (ix3 u r d)
      = headOut (fun r d' => q (ix3 (0 : Fin 1) r d')) (fun j d' => k (ix3 (0 : Fin 1) j d')) (fun j d' => v (ix3 (0 : Fin 1) j d')) r d := by
  unfold k1_pay2 headOut
  refine (weighted_apply _ _ u r d).trans ?_
  refine Finset.sum_congr rfl fun j _ => ?_
  refine congrArg₂ (fun a b : EReal => a * b) ?_ (shapeCast_1ab_ab_apply v shapeCasts_S1x2048x64_S2048x64 j d)
  refine (weights_apply _ r j).trans ?_
  refine congrArg (fun f : Fin 2048 → EReal => softmax f j) (funext fun j' => ?_)
  refine (scores_apply _ _ r j').trans ?_
  exact congrArg (fun a : EReal => a * quarter) (Finset.sum_congr rfl fun d' _ =>
    congrArg₂ (fun a b : EReal => a * b) (shapeCast_1ab_ab_apply q shapeCasts_S1x512x64_S512x64 r d')
      (shapeCast_1ab_ab_apply k shapeCasts_S1x2048x64_S2048x64 j' d'))

/-! ## The block as one function of its index -/

/-- The output block at row `r`, column `c`: the output of the column's head at the column's lane. -/
def blockAt (x0 : Vec Ideal S1x512x1024 .bf16) (x1 x2 : Vec Ideal S1x2048x1024 .bf16) (r : Fin 512) (c : Fin 1024) : EReal :=
  headOut (fun r' d' => x0 (ix3 (0 : Fin 1) r' (col (headOf c) d'))) (fun j d' => x1 (ix3 (0 : Fin 1) j (col (headOf c) d')))
    (fun j d' => x2 (ix3 (0 : Fin 1) j (col (headOf c) d'))) r (laneOf c)

/-- The same as a function of the block's index. -/
def blockOut (x0 : Vec Ideal S1x512x1024 .bf16) (x1 x2 : Vec Ideal S1x2048x1024 .bf16) : S1x512x1024.Idx → EReal :=
  fun y => blockAt x0 x1 x2 ⟨(y 1).val, (y 1).isLt⟩ ⟨(y 2).val, (y 2).isLt⟩

theorem blockAt_col (x0 : Vec Ideal S1x512x1024 .bf16) (x1 x2 : Vec Ideal S1x2048x1024 .bf16) (r : Fin 512) (h : Fin 16) (d : Fin 64) :
    blockAt x0 x1 x2 r (col h d)
      = headOut (fun r' d' => x0 (ix3 (0 : Fin 1) r' (col h d'))) (fun j d' => x1 (ix3 (0 : Fin 1) j (col h d')))
          (fun j d' => x2 (ix3 (0 : Fin 1) j (col h d'))) r d := by
  unfold blockAt; rw [headOf_col, laneOf_col]

/-- A load of 64 columns from column `o` of a `[1, n, 1024]` block reads the block at column `o + d`. -/
theorem ld_cols {n : ℕ} (X : (⟨3, ![1, n, 1024]⟩ : Shape).Idx → Elt Ideal .bf16) (o : ℕ)
    (inb : ∀ a, (![0, 0, o] : Fin 3 → Nat) a + (⟨3, ![1, n, 64]⟩ : Shape).size a ≤ (⟨3, ![1, n, 1024]⟩ : Shape).size a)
    (u : Fin 1) (r : Fin n) (d : Fin 64) (c : Fin 1024) (hc : c.val = o + d.val) :
    View.ld (Val := Elt Ideal) (e' := .bf16) X (Rect.unit (s := ⟨3, ![1, n, 1024]⟩) ![0, 0, o] (⟨3, ![1, n, 64]⟩ : Shape).size inb) (ix3 u r d)
      = X (ix3 (0 : Fin 1) r c) := by
  refine congrArg X (funext fun a => Fin.ext ?_)
  match a with
  | ⟨0, _⟩ => show 0 + 1 * u.val = 0; omega
  | ⟨1, _⟩ => show 0 + 1 * r.val = r.val; omega
  | ⟨2, _⟩ => show o + 1 * d.val = c.val; omega

/-- One store's payload is the block function on the store's rectangle: the piece of head `h`, whose rectangles
    start at column `o = 64 h`. -/
theorem piece_ok (x0 : Vec Ideal S1x512x1024 .bf16) (x1 x2 : Vec Ideal S1x2048x1024 .bf16) (h : Fin 16) (o : ℕ) (ho : o = h.val * 64)
    (inbq : ∀ a, (![0, 0, o] : Fin 3 → Nat) a + S1x512x64.size a ≤ S1x512x1024.size a)
    (inbk : ∀ a, (![0, 0, o] : Fin 3 → Nat) a + S1x2048x64.size a ≤ S1x2048x1024.size a)
    (w : Vec Ideal S1x512x64 .bf16)
    (hw : w = k1_pay2 (F := Ideal) (View.ld x0 (Rect.unit (s := S1x512x1024) ![0, 0, o] S1x512x64.size inbq))
      (View.ld x1 (Rect.unit (s := S1x2048x1024) ![0, 0, o] S1x2048x64.size inbk))
      (View.ld x2 (Rect.unit (s := S1x2048x1024) ![0, 0, o] S1x2048x64.size inbk))) :
    ∀ x : (Rect.unit (s := S1x512x1024) ![0, 0, o] S1x512x64.size inbq).shape.Idx,
      w x = blockOut x0 x1 x2 ((Rect.unit (s := S1x512x1024) ![0, 0, o] S1x512x64.size inbq).emb x) := by
  intro x
  obtain ⟨u, r, d, rfl⟩ : ∃ (u : Fin 1) (r : Fin 512) (d : Fin 64), x = ix3 u r d := ⟨x 0, x 1, x 2, eq_ix3 x⟩
  subst hw
  refine (head_apply _ _ _ u r d).trans ?_
  have hcol : ∀ d' : Fin 64, (col h d').val = o + d'.val := fun d' => by rw [col_val, ho]
  have e : blockOut x0 x1 x2 ((Rect.unit (s := S1x512x1024) ![0, 0, o] S1x512x64.size inbq).emb (ix3 u r d))
      = blockAt x0 x1 x2 r (col h d) :=
    congrArg₂ (blockAt x0 x1 x2) (Fin.ext (by show 0 + 1 * r.val = r.val; omega))
      (Fin.ext (by show o + 1 * d.val = (col h d).val; rw [hcol]; omega))
  rw [e, blockAt_col]
  unfold headOut
  refine Finset.sum_congr rfl fun j _ => ?_
  refine congrArg₂ (fun a b : EReal => a * b) ?_ (ld_cols x2 o inbk 0 j d (col h d) (hcol d))
  refine congrArg (fun f : Fin 2048 → EReal => softmax f j) (funext fun j' => ?_)
  exact congrArg (fun a : EReal => a * quarter) (Finset.sum_congr rfl fun d' _ =>
    congrArg₂ (fun a b : EReal => a * b) (ld_cols x0 o inbq 0 r d' (col h d') (hcol d'))
      (ld_cols x1 o inbk 0 j' d' (col h d') (hcol d')))

/-! ## What the body leaves in the output block, at an entry -/

/-- The sixteen stores read back as the one block function: each store's payload is one of sixteen cuts of the
    chain above, equal to it by unfolding, over the loads of the head's columns; the stores tile the block. -/
theorem out1_3_eq (x0 : Vec Ideal S1x512x1024 .bf16) (x1 x2 : Vec Ideal S1x2048x1024 .bf16) (y : S1x512x1024.Idx) :
    out1_3 (F := Ideal) x0 x1 x2 y = blockOut x0 x1 x2 y := by
  unfold out1_3
  refine View.canon_apply_of_pieces (Val := Elt Ideal) (e := .bf16) (blockOut x0 x1 x2) _ ?_ y (cover1_3 _ _ _ _ _ _ _ _ _ _ _ _ _ _ _ _ y)
  simp only [List.forall_mem_cons, List.not_mem_nil, false_imp_iff, implies_true, and_true]
  exact ⟨
      (piece_ok x0 x1 x2 15 960 rfl inb_S1x512x1024_S1x512x64_0_0_960 inb_S1x2048x1024_S1x2048x64_0_0_960 _ rfl),
      (piece_ok x0 x1 x2 14 896 rfl inb_S1x512x1024_S1x512x64_0_0_896 inb_S1x2048x1024_S1x2048x64_0_0_896 _ rfl),
      (piece_ok x0 x1 x2 13 832 rfl inb_S1x512x1024_S1x512x64_0_0_832 inb_S1x2048x1024_S1x2048x64_0_0_832 _ rfl),
      (piece_ok x0 x1 x2 12 768 rfl inb_S1x512x1024_S1x512x64_0_0_768 inb_S1x2048x1024_S1x2048x64_0_0_768 _ rfl),
      (piece_ok x0 x1 x2 11 704 rfl inb_S1x512x1024_S1x512x64_0_0_704 inb_S1x2048x1024_S1x2048x64_0_0_704 _ rfl),
      (piece_ok x0 x1 x2 10 640 rfl inb_S1x512x1024_S1x512x64_0_0_640 inb_S1x2048x1024_S1x2048x64_0_0_640 _ rfl),
      (piece_ok x0 x1 x2 9 576 rfl inb_S1x512x1024_S1x512x64_0_0_576 inb_S1x2048x1024_S1x2048x64_0_0_576 _ rfl),
      (piece_ok x0 x1 x2 8 512 rfl inb_S1x512x1024_S1x512x64_0_0_512 inb_S1x2048x1024_S1x2048x64_0_0_512 _ rfl),
      (piece_ok x0 x1 x2 7 448 rfl inb_S1x512x1024_S1x512x64_0_0_448 inb_S1x2048x1024_S1x2048x64_0_0_448 _ rfl),
      (piece_ok x0 x1 x2 6 384 rfl inb_S1x512x1024_S1x512x64_0_0_384 inb_S1x2048x1024_S1x2048x64_0_0_384 _ rfl),
      (piece_ok x0 x1 x2 5 320 rfl inb_S1x512x1024_S1x512x64_0_0_320 inb_S1x2048x1024_S1x2048x64_0_0_320 _ rfl),
      (piece_ok x0 x1 x2 4 256 rfl inb_S1x512x1024_S1x512x64_0_0_256 inb_S1x2048x1024_S1x2048x64_0_0_256 _ rfl),
      (piece_ok x0 x1 x2 3 192 rfl inb_S1x512x1024_S1x512x64_0_0_192 inb_S1x2048x1024_S1x2048x64_0_0_192 _ rfl),
      (piece_ok x0 x1 x2 2 128 rfl inb_S1x512x1024_S1x512x64_0_0_128 inb_S1x2048x1024_S1x2048x64_0_0_128 _ rfl),
      (piece_ok x0 x1 x2 1 64 rfl inb_S1x512x1024_S1x512x64_0_0_64 inb_S1x2048x1024_S1x2048x64_0_0_64 _ rfl),
      (piece_ok x0 x1 x2 0 0 rfl inb_S1x512x1024_S1x512x64_0_0_0 inb_S1x2048x1024_S1x2048x64_0_0_0 _ rfl)⟩

/-- Row `r`, column `64 h + d` of the block the body leaves: head `h`'s output at lane `d`. -/
theorem out1_3_apply (x0 : Vec Ideal S1x512x1024 .bf16) (x1 x2 : Vec Ideal S1x2048x1024 .bf16) (h : Fin 16) (r : Fin 512) (d : Fin 64) :
    out1_3 (F := Ideal) x0 x1 x2 (ix3 (0 : Fin 1) r (col h d))
      = ∑ j : Fin 2048,
          softmax (fun j' => (∑ d' : Fin 64, x0 (ix3 (0 : Fin 1) r (col h d')) * x1 (ix3 (0 : Fin 1) j' (col h d'))) * quarter) j
            * x2 (ix3 (0 : Fin 1) j (col h d)) := by
  rw [out1_3_eq]
  exact blockAt_col x0 x1 x2 r h d

end Cert.Attn.Body

end
-- ==== Proof.Region1Value.lean ====
/-
  The attention region's output array, read at an entry, on the extended reals.

  The region runs the attention body on a grid of 4 batches × 4 query tiles. At point `t` (batch `t / 4`, tile
  `t % 4`) the query window's block is rows `512 (t % 4) …` of batch `t / 4`, columns `0 … 1023` of the fused
  projection's output `[4, 2048, 3072]`; the key and value windows' blocks are all 2048 rows of that batch at
  columns `1024 …` and `2048 …`; the output window's block is rows `512 (t % 4) …` of batch `t / 4` of the
  `[4, 2048, 1024]` result. What point `t` writes back is the body's block function of those three blocks, which
  is the block of ONE function of the whole arrays — multi-head attention of the three column slabs —, and the
  sixteen blocks tile the result: entry `(b, l, e)` lies in the block of point `4 b + l / 512`.
-/
import proofs.«107256_j17025250361728_2_alg».proof.Proof.Region1
import proofs.«107256_j17025250361728_2_alg».proof.Proof.BodyValueAttention
import proofs.«107256_j17025250361728_2_alg».proof.Proof.Spec
import Idealize.ShloMosaic.Lib.Pipeline.Value

set_option maxRecDepth 16384

noncomputable section

namespace Cert.Attn.Body

open Idealize.ShloMosaic Idealize.ShloMosaic.ValueIdx Idealize.ShloMosaic.TcCoe
open Idealize.SL.Sem
open Cert.KernelIdeal Cert.KernelIdeal.Gen
open Idealize.ShloMosaic.Pipeline (Dat)

/-- The grid has sixteen points. -/
theorem point_lt (t : Fin cfg1.N) : t.val < 16 := by
  have h := t.isLt
  have hN : cfg1.N = 16 := N_1
  omega

/-- The printed index maps, decided over the grid: at point `t` the query and output windows are at block
    `(t / 4, t % 4, 0)`, the key window at `(t / 4, 0, 1)`, the value window at `(t / 4, 0, 2)`. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 1
    ∧ win1_2.index t (0 : Fin 3) = t.val / 4 ∧ win1_2.index t (1 : Fin 3) = 0 ∧ win1_2.index t (2 : Fin 3) = 2
    ∧ win1_3.index t (0 : Fin 3) = t.val / 4 ∧ win1_3.index t (1 : Fin 3) = t.val % 4 ∧ win1_3.index t (2 : Fin 3) = 0 :=
  (by decide +kernel : ∀ t : Fin grid1.N, _)

section
variable (V : (c : Dev nD) → (b : Ref sig .tc) → Buf (Elt Ideal) ((c : Thread nD τ).loc b)) (c : Dev nD)

/-- The query slab of the fused projection's output: its columns `0 … 1023`. -/
def slabQ : Act := fun b l e => V c main_v9 (ix3 b l (⟨e.val, by omega⟩ : Fin 3072))
/-- The key slab: columns `1024 … 2047`. -/
def slabK : Act := fun b l e => V c main_v9 (ix3 b l (⟨1024 + e.val, by omega⟩ : Fin 3072))
/-- The value slab: columns `2048 … 3071`. -/
def slabV : Act := fun b l e => V c main_v9 (ix3 b l (⟨2048 + e.val, by omega⟩ : Fin 3072))

/-- The query window's block at point `t`, at row `r`, column `e`. -/
theorem iblk1_0_apply (t : Fin cfg1.N) (r : Fin 512) (e : Fin 1024) :
    iblk1 (F := Ideal) V c 0 t (ix3 (0 : Fin 1) r e)
      = slabQ V c ⟨t.val / 4, by have := point_lt t; omega⟩ ⟨t.val % 4 * 512 + r.val, by omega⟩ e := by
  obtain ⟨e0, e1, e2, -⟩ := idx_facts1 t
  unfold iblk1 slabQ
  show V c main_v9 (((cfg1.win 0).blk t).view.emb (ix3 (0 : Fin 1) r e)) = _
  refine congrArg (V c main_v9) (funext fun a => Fin.ext ?_)
  match a with
  | ⟨0, _⟩ => show win1_0.index t (0 : Fin 3) * 1 + 1 * 0 = t.val / 4; omega
  | ⟨1, _⟩ => show win1_0.index t (1 : Fin 3) * 512 + 1 * r.val = t.val % 4 * 512 + r.val; omega
  | ⟨2, _⟩ => show win1_0.index t (2 : Fin 3) * 1024 + 1 * e.val = e.val; omega

/-- The key window's block at point `t`, at row `j`, column `e`. -/
theorem iblk1_1_apply (t : Fin cfg1.N) (j : Fin 2048) (e : Fin 1024) :
    iblk1 (F := Ideal) V c 1 t (ix3 (0 : Fin 1) j e) = slabK V c ⟨t.val / 4, by have := point_lt t; omega⟩ j e := by
  obtain ⟨-, -, -, e0, e1, e2, -⟩ := idx_facts1 t
  unfold iblk1 slabK
  show V c main_v9 (((cfg1.win 1).blk t).view.emb (ix3 (0 : Fin 1) j e)) = _
  refine congrArg (V c main_v9) (funext fun a => Fin.ext ?_)
  match a with
  | ⟨0, _⟩ => show win1_1.index t (0 : Fin 3) * 1 + 1 * 0 = t.val / 4; omega
  | ⟨1, _⟩ => show win1_1.index t (1 : Fin 3) * 2048 + 1 * j.val = j.val; omega
  | ⟨2, _⟩ => show win1_1.index t (2 : Fin 3) * 1024 + 1 * e.val = 1024 + e.val; omega

/-- The value window's block at point `t`, at row `j`, column `e`. -/
theorem iblk1_2_apply (t : Fin cfg1.N) (j : Fin 2048) (e : Fin 1024) :
    iblk1 (F := Ideal) V c 2 t (ix3 (0 : Fin 1) j e) = slabV V c ⟨t.val / 4, by have := point_lt t; omega⟩ j e := by
  obtain ⟨-, -, -, -, -, -, e0, e1, e2, -⟩ := idx_facts1 t
  unfold iblk1 slabV
  show V c main_v9 (((cfg1.win 2).blk t).view.emb (ix3 (0 : Fin 1) j e)) = _
  refine congrArg (V c main_v9) (funext fun a => Fin.ext ?_)
  match a with
  | ⟨0, _⟩ => show win1_2.index t (0 : Fin 3) * 1 + 1 * 0 = t.val / 4; omega
  | ⟨1, _⟩ => show win1_2.index t (1 : Fin 3) * 2048 + 1 * j.val = j.val; omega
  | ⟨2, _⟩ => show win1_2.index t (2 : Fin 3) * 1024 + 1 * e.val = 2048 + e.val; omega

end

/-- The body's block function of three blocks that are a query tile and the key and value rows of one batch of three
    arrays is that batch's attention at the tile's rows. -/
theorem blockAt_eq_attn (X0 : Vec Ideal S1x512x1024 .bf16) (X1 X2 : Vec Ideal S1x2048x1024 .bf16) (Q K W : Act) (b : Fin 4) (l : Fin 512 → Fin 2048)
    (h0 : ∀ (r : Fin 512) (e : Fin 1024), X0 (ix3 (0 : Fin 1) r e) = Q b (l r) e)
    (h1 : ∀ (j : Fin 2048) (e : Fin 1024), X1 (ix3 (0 : Fin 1) j e) = K b j e)
    (h2 : ∀ (j : Fin 2048) (e : Fin 1024), X2 (ix3 (0 : Fin 1) j e) = W b j e) (r : Fin 512) (cc : Fin 1024) :
    blockAt X0 X1 X2 r cc = attn Q K W b (l r) (headOf cc) (laneOf cc) := by
  unfold blockAt headOut attn score
  simp only [h0, h1, h2]

/-- The result array as one function of the three slabs: entry `(b, l, e)` is head `e / 64`'s attention output at
    lane `e % 64`. -/
def arrOut (Q K W : Act) : S4x2048x1024.Idx → EReal := fun i =>
  attn Q K W ⟨(i 0).val, (i 0).isLt⟩ ⟨(i 1).val, (i 1).isLt⟩ (headOf ⟨(i 2).val, (i 2).isLt⟩) (laneOf ⟨(i 2).val, (i 2).isLt⟩)

section
variable (V : (c : Dev nD) → (b : Ref sig .tc) → Buf (Elt Ideal) ((c : Thread nD τ).loc b)) (c : Dev nD)

/-- What point `t` writes back is block `t` of that function of the slabs as the region finds them. -/
theorem flushed1_3_eq (t : Fin cfg1.N) :
    (dat1 (F := Ideal) V c).flushed 3 t
      = ((cfg1.win 3).blk t).view.read (Elt Ideal) (arrOut (slabQ V c) (slabK V c) (slabV V c)) := by
  show (cfg1.win 3).cut (grid1.coords t) ((dat1 (F := Ideal) V c).after 3 t) = _
  rw [after1_3]
  obtain ⟨-, -, -, -, -, -, -, -, -, e0, e1, e2⟩ := idx_facts1 t
  funext y
  have hy0 : (y 0).val < 1 := (y 0).isLt
  have hy1 : (y 1).val < 512 := (y 1).isLt
  have hy2 : (y 2).val < 1024 := (y 2).isLt
  have ht := point_lt t
  show out1_3 (F := Ideal) (iblk1 V c 0 t) (iblk1 V c 1 t) (iblk1 V c 2 t) (fun a => ⟨(y a).val, _⟩)
    = arrOut (slabQ V c) (slabK V c) (slabV V c) (((cfg1.win 3).blk t).view.emb y)
  rw [out1_3_eq]
  refine (blockAt_eq_attn _ _ _ (slabQ V c) (slabK V c) (slabV V c) ⟨t.val / 4, by omega⟩
    (fun r => ⟨t.val % 4 * 512 + r.val, by omega⟩) (iblk1_0_apply V c t) (iblk1_1_apply V c t) (iblk1_2_apply V c t)
    ⟨(y 1).val, hy1⟩ ⟨(y 2).val, hy2⟩).trans ?_
  unfold arrOut
  have a0 : ((((cfg1.win 3).blk t).view.emb y) 0).val = t.val / 4 := by
    show win1_3.index t (0 : Fin 3) * 1 + 1 * (y 0).val = t.val / 4; omega
  have a1 : ((((cfg1.win 3).blk t).view.emb y) 1).val = t.val % 4 * 512 + (y 1).val := by
    show win1_3.index t (1 : Fin 3) * 512 + 1 * (y 1).val = _; omega
  have a2 : ((((cfg1.win 3).blk t).view.emb y) 2).val = (y 2).val := by
    show win1_3.index t (2 : Fin 3) * 1024 + 1 * (y 2).val = _; omega
  have f0 : (⟨t.val / 4, by omega⟩ : Fin 4) = ⟨((((cfg1.win 3).blk t).view.emb y) 0).val, ((((cfg1.win 3).blk t).view.emb y) 0).isLt⟩ := Fin.ext a0.symm
  have f1 : (⟨t.val % 4 * 512 + (y 1).val, by omega⟩ : Fin 2048) = ⟨((((cfg1.win 3).blk t).view.emb y) 1).val, ((((cfg1.win 3).blk t).view.emb y) 1).isLt⟩ := Fin.ext a1.symm
  have f2 : (⟨(y 2).val, hy2⟩ : Fin 1024) = ⟨((((cfg1.win 3).blk t).view.emb y) 2).val, ((((cfg1.win 3).blk t).view.emb y) 2).isLt⟩ := Fin.ext a2.symm
  rw [← f0, ← f1, ← f2]

/-- THE ARRAY after the region, at batch `b`, position `l`, head `h`, lane `d`: the head's attention output, of the
    three column slabs of the fused projection's output as the region finds it. -/
theorem region1_value (b : Fin 4) (l : Fin 2048) (h : Fin 16) (d : Fin 64) :
    (dat1 (F := Ideal) V c).arrAt 3 cfg1.N (ix3 b l (col h d))
      = attn (fun b' l' e => V c main_v9 (ix3 b' l' (⟨e.val, by omega⟩ : Fin 3072)))
          (fun b' l' e => V c main_v9 (ix3 b' l' (⟨1024 + e.val, by omega⟩ : Fin 3072)))
          (fun b' l' e => V c main_v9 (ix3 b' l' (⟨2048 + e.val, by omega⟩ : Fin 3072))) b l h d := by
  have hN : cfg1.N = 16 := N_1
  let t : Fin cfg1.N := ⟨4 * b.val + l.val / 512, by rw [hN]; omega⟩
  have htv : t.val = 4 * b.val + l.val / 512 := rfl
  obtain ⟨-, -, -, -, -, -, -, -, -, e0, e1, e2⟩ := idx_facts1 t
  let y : ((cfg1.win 3).xblock (grid1.coords t)).Idx := ix3 (0 : Fin 1) (⟨l.val % 512, by omega⟩ : Fin 512) (col h d)
  have hy : ((cfg1.win 3).blk t).view.emb y = ix3 b l (col h d) := by
    funext a; apply Fin.ext
    match a with
    | ⟨0, _⟩ => show win1_3.index t (0 : Fin 3) * 1 + 1 * 0 = b.val; omega
    | ⟨1, _⟩ => show win1_3.index t (1 : Fin 3) * 512 + 1 * (l.val % 512) = l.val; omega
    | ⟨2, _⟩ => show win1_3.index t (2 : Fin 3) * 1024 + 1 * (col h d).val = (col h d).val; omega
  have hmem : ix3 b l (col h d) ∈ ((cfg1.win 3).blk t).view.set := by
    rw [← hy]; exact ((cfg1.win 3).blk t).view.emb_mem_set y
  refine ((dat1 (F := Ideal) V c).arrAt_apply_of_mem 3 (arrOut (slabQ V c) (slabK V c) (slabV V c))
    (fun t _ => flushed1_3_eq V c t) cfg1.N t _ t.isLt (flush1_3 t) hmem).trans ?_
  show attn (slabQ V c) (slabK V c) (slabV V c) b l (headOf (col h d)) (laneOf (col h d)) = _
  rw [headOf_col, laneOf_col]
  rfl

end

end Cert.Attn.Body

end
-- ==== Proof.KernelValue.lean ====
/-
  What the kernel program leaves in its result array, given what its three regions leave in theirs.

  Between the regions the program only moves data. Before the first region: the input [4, 2048, 1024] flattened to
  [8192, 1024] (row 2048 b + l is position l of batch b); the three projection weights transposed and set side by side
  into one [1024, 3072] matrix, so that its column slabs [0, 1024), [1024, 2048), [2048, 3072) are the transposes of
  the query, key and value weights; their biases end to end as one row [1, 3072]. Between the first and second regions:
  [8192, 3072] unflattened to [4, 2048, 3072]. Before the third: the attention output flattened, the output weight
  transposed, its bias as one row. After it: [8192, 1024] unflattened. A change of float format is the identity on the
  extended reals.

  The regions' own values are taken as hypotheses, in the form they are proved in: the first and third regions are
  each `rows · matrix + bias row`, the second is, at feature `64 h + d`, head `h`'s attention of the three column
  slabs of its one input array. Reading each moved array at an index and composing: the first region's column slabs
  are the three linear layers of the input, the second region's output is their heads' attention side by side, the
  third's is the last linear layer of that: the specification `G` of the nine arguments.
-/
import proofs.«107256_j17025250361728_2_alg».proof.Proof.Run
import proofs.«107256_j17025250361728_2_alg».proof.Proof.Spec
import Idealize.ShloMosaic.Lib.Pipeline.Value
import Idealize.ShloMosaic.Lib.ValueIdx

noncomputable section

namespace Cert.Attn.Kernel

open Cert.KernelIdeal Cert.KernelIdeal.Gen Idealize.ShloMosaic Idealize.ShloMosaic.TcCoe Idealize.ShloMosaic.ValueIdx
open Idealize.ShloMosaic.StableHlo

/-- A host operation of three literal operands: its result with each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The contents of one buffer after a literal line of reshapes, one-operand and three-operand operations. -/
macro "host_results" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

/-- Row `2048 b + l` of the flattened [8192, ·] arrays. -/
def row (b : Fin 4) (l : Fin 2048) : Fin 8192 := ⟨b.val * 2048 + l.val, by have := b.isLt; have := l.isLt; omega⟩

variable (V : Valuation τ sig (Elt Ideal))

/-! ## The first host stretch -/

/-- The input flattened to [8192, 1024]: row `2048 b + l` is position `l` of batch `b`. -/
theorem h0_x (b : Fin 4) (l : Fin 2048) (k : Fin 1024) :
    (after hostOps0 V (Proc.devRef .tc main_v0) : S8192x1024.Idx → EReal) (ix2 (row b l) k)
      = (V (Proc.devRef .tc main_arg0) : S4x2048x1024.Idx → EReal) (ix3 b l k) := by
  host_results
  refine shapeCast_apply _ shapeCasts_S4x2048x1024_S8192x1024 (ix2 (row b l) k) (ix3 b l k) ?_
  rw [Shape.rowMajor_val_three, Shape.rowMajor_val_two]
  rfl

/-- Column slab `p` of the fused weight [1024, 3072] is the transpose of the `p`-th weight. Its first slab: -/
theorem h0_wq (k e : Fin 1024) :
    (after hostOps0 V (Proc.devRef .tc main_v5) : S1024x3072.Idx → EReal) (ix2 k (⟨e.val, by omega⟩ : Fin 3072))
      = (V (Proc.devRef .tc main_arg1) : S1024x1024.Idx → EReal) (ix2 e k) := by
  host_results
  rw [truncf_apply]
  refine (concatenate_apply_piece (t := S1024x3072) 1 _ _ (ix2 k (⟨e.val, by omega⟩ : Fin 3072)) 0
    (by show (0 : Nat) < 3; decide) S1024x1024 _ (by rfl) (by rfl) 0 (by rfl) (ix2 k e)
    (by intro b hb; match b with | ⟨0, _⟩ => rfl | ⟨1, _⟩ => exact absurd rfl hb) (Nat.zero_add _)).trans ?_
  exact transpose_apply [1, 0] _ transposes_S1024x1024_S1024x1024_1_0 (ix2 k e) (ix2 e k)
    (fun b => match b with | ⟨0, _⟩ => rfl | ⟨1, _⟩ => rfl)

/-- … its second … -/
theorem h0_wk (k e : Fin 1024) :
    (after hostOps0 V (Proc.devRef .tc main_v5) : S1024x3072.Idx → EReal) (ix2 k (⟨1024 + e.val, by omega⟩ : Fin 3072))
      = (V (Proc.devRef .tc main_arg3) : S1024x1024.Idx → EReal) (ix2 e k) := by
  host_results
  rw [truncf_apply]
  refine (concatenate_apply_piece (t := S1024x3072) 1 _ _ (ix2 k (⟨1024 + e.val, by omega⟩ : Fin 3072)) 1
    (by show (1 : Nat) < 3; decide) S1024x1024 _ (by rfl) (by rfl) 1024 (by rfl) (ix2 k e)
    (by intro b hb; match b with | ⟨0, _⟩ => rfl | ⟨1, _⟩ => exact absurd rfl hb) (by rfl)).trans ?_
  exact transpose_apply [1, 0] _ transposes_S1024x1024_S1024x1024_1_0 (ix2 k e) (ix2 e k)
    (fun b => match b with | ⟨0, _⟩ => rfl | ⟨1, _⟩ => rfl)

/-- … and its third. -/
theorem h0_wv (k e : Fin 1024) :
    (after hostOps0 V (Proc.devRef .tc main_v5) : S1024x3072.Idx → EReal) (ix2 k (⟨2048 + e.val, by omega⟩ : Fin 3072))
      = (V (Proc.devRef .tc main_arg5) : S1024x1024.Idx → EReal) (ix2 e k) := by
  host_results
  rw [truncf_apply]
  refine (concatenate_apply_piece (t := S1024x3072) 1 _ _ (ix2 k (⟨2048 + e.val, by omega⟩ : Fin 3072)) 2
    (by show (2 : Nat) < 3; decide) S1024x1024 _ (by rfl) (by rfl) 2048 (by rfl) (ix2 k e)
    (by intro b hb; match b with | ⟨0, _⟩ => rfl | ⟨1, _⟩ => exact absurd rfl hb) (by rfl)).trans ?_
  exact transpose_apply [1, 0] _ transposes_S1024x1024_S1024x1024_1_0 (ix2 k e) (ix2 e k)
    (fun b => match b with | ⟨0, _⟩ => rfl | ⟨1, _⟩ => rfl)

/-- The one row of the fused bias [1, 3072] at column `n` is the concatenated biases at `n`. -/
theorem h0_row (n : Fin 3072) :
    (S3072.rowMajor (ix1 n)).val = (S1x3072.rowMajor (ix2 (0 : Fin 1) n)).val := by
  rw [Shape.rowMajor_val_one, Shape.rowMajor_val_two]
  show n.val = 0 * 3072 + n.val
  omega

/-- Slab `p` of the fused bias is the `p`-th bias. Its first slab: -/
theorem h0_bq (e : Fin 1024) :
    (after hostOps0 V (Proc.devRef .tc main_v7) : S1x3072.Idx → EReal) (ix2 (0 : Fin 1) (⟨e.val, by omega⟩ : Fin 3072))
      = (V (Proc.devRef .tc main_arg2) : S1024.Idx → EReal) (ix1 e) := by
  host_results
  refine (shapeCast_apply _ shapeCasts_S3072_S1x3072 _ (ix1 (⟨e.val, by omega⟩ : Fin 3072)) (h0_row _)).trans ?_
  exact concatenate_apply_piece (t := S3072) 0 _ _ (ix1 (⟨e.val, by omega⟩ : Fin 3072)) 0
    (by show (0 : Nat) < 3; decide) S1024 _ (by rfl) (by rfl) 0 (by rfl) (ix1 e)
    (by intro b hb; match b with | ⟨0, _⟩ => exact absurd rfl hb) (Nat.zero_add _)

/-- … its second … -/
theorem h0_bk (e : Fin 1024) :
    (after hostOps0 V (Proc.devRef .tc main_v7) : S1x3072.Idx → EReal) (ix2 (0 : Fin 1) (⟨1024 + e.val, by omega⟩ : Fin 3072))
      = (V (Proc.devRef .tc main_arg4) : S1024.Idx → EReal) (ix1 e) := by
  host_results
  refine (shapeCast_apply _ shapeCasts_S3072_S1x3072 _ (ix1 (⟨1024 + e.val, by omega⟩ : Fin 3072)) (h0_row _)).trans ?_
  exact concatenate_apply_piece (t := S3072) 0 _ _ (ix1 (⟨1024 + e.val, by omega⟩ : Fin 3072)) 1
    (by show (1 : Nat) < 3; decide) S1024 _ (by rfl) (by rfl) 1024 (by rfl) (ix1 e)
    (by intro b hb; match b with | ⟨0, _⟩ => exact absurd rfl hb) (by rfl)

/-- … and its third. -/
theorem h0_bv (e : Fin 1024) :
    (after hostOps0 V (Proc.devRef .tc main_v7) : S1x3072.Idx → EReal) (ix2 (0 : Fin 1) (⟨2048 + e.val, by omega⟩ : Fin 3072))
      = (V (Proc.devRef .tc main_arg6) : S1024.Idx → EReal) (ix1 e) := by
  host_results
  refine (shapeCast_apply _ shapeCasts_S3072_S1x3072 _ (ix1 (⟨2048 + e.val, by omega⟩ : Fin 3072)) (h0_row _)).trans ?_
  exact concatenate_apply_piece (t := S3072) 0 _ _ (ix1 (⟨2048 + e.val, by omega⟩ : Fin 3072)) 2
    (by show (2 : Nat) < 3; decide) S1024 _ (by rfl) (by rfl) 2048 (by rfl) (ix1 e)
    (by intro b hb; match b with | ⟨0, _⟩ => exact absurd rfl hb) (by rfl)

/-! ## The reshape between the projection and the attention -/

/-- [4, 2048, 3072] at (b, l, n) is the flattened array's row `2048 b + l`, column `n`. -/
theorem h1_qkv (b : Fin 4) (l : Fin 2048) (n : Fin 3072) :
    (after hostOps1 V (Proc.devRef .tc main_v9) : S4x2048x3072.Idx → EReal) (ix3 b l n)
      = (V (Proc.devRef .tc main_v8) : S8192x3072.Idx → EReal) (ix2 (row b l) n) := by
  host_results
  refine shapeCast_apply _ shapeCasts_S8192x3072_S4x2048x3072 (ix3 b l n) (ix2 (row b l) n) ?_
  rw [Shape.rowMajor_val_two, Shape.rowMajor_val_three]
  rfl

/-! ## The third host stretch -/

/-- The attention output flattened to [8192, 1024]. -/
theorem h2_a (b : Fin 4) (l : Fin 2048) (e : Fin 1024) :
    (after hostOps2 V (Proc.devRef .tc main_v11) : S8192x1024.Idx → EReal) (ix2 (row b l) e)
      = (V (Proc.devRef .tc main_v10) : S4x2048x1024.Idx → EReal) (ix3 b l e) := by
  host_results
  refine shapeCast_apply _ shapeCasts_S4x2048x1024_S8192x1024 (ix2 (row b l) e) (ix3 b l e) ?_
  rw [Shape.rowMajor_val_three, Shape.rowMajor_val_two]
  rfl

/-- The output weight transposed. -/
theorem h2_wo (e f : Fin 1024) :
    (after hostOps2 V (Proc.devRef .tc main_v13) : S1024x1024.Idx → EReal) (ix2 e f)
      = (V (Proc.devRef .tc main_arg7) : S1024x1024.Idx → EReal) (ix2 f e) := by
  host_results
  rw [truncf_apply]
  exact transpose_apply [1, 0] _ transposes_S1024x1024_S1024x1024_1_0 (ix2 e f) (ix2 f e)
    (fun b => match b with | ⟨0, _⟩ => rfl | ⟨1, _⟩ => rfl)

/-- The output bias as one row. -/
theorem h2_bo (f : Fin 1024) :
    (after hostOps2 V (Proc.devRef .tc main_v14) : S1x1024.Idx → EReal) (ix2 (0 : Fin 1) f)
      = (V (Proc.devRef .tc main_arg8) : S1024.Idx → EReal) (ix1 f) := by
  host_results
  refine shapeCast_apply _ shapeCasts_S1024_S1x1024 (ix2 (0 : Fin 1) f) (ix1 f) ?_
  rw [Shape.rowMajor_val_one, Shape.rowMajor_val_two]
  show f.val = 0 * 1024 + f.val
  omega

/-! ## The last reshape -/

/-- The result [4, 2048, 1024] at (b, l, f) is the flattened projection's row `2048 b + l`, column `f`. -/
theorem h3_out (b : Fin 4) (l : Fin 2048) (f : Fin 1024) :
    (after hostOps3 V (Proc.devRef .tc main_v16) : S4x2048x1024.Idx → EReal) (ix3 b l f)
      = (V (Proc.devRef .tc main_v15) : S8192x1024.Idx → EReal) (ix2 (row b l) f) := by
  host_results
  refine shapeCast_apply _ shapeCasts_S8192x1024_S4x2048x1024 (ix3 b l f) (ix2 (row b l) f) ?_
  rw [Shape.rowMajor_val_two, Shape.rowMajor_val_three]
  rfl

/-! ## The composition over the program's boundaries -/

section Compose

variable (m : (ℓ : Loc nD τ sig) → Buf (Elt Ideal) ℓ) (c : Dev nD)

/-- The nine arguments, read by coordinates. -/
abbrev aX : Act := readAct (m ((c.tc : Thread nD τ).loc main_arg0))
abbrev aWq : Wt := readWt (m ((c.tc : Thread nD τ).loc main_arg1))
abbrev aBq : Bias := readBias (m ((c.tc : Thread nD τ).loc main_arg2))
abbrev aWk : Wt := readWt (m ((c.tc : Thread nD τ).loc main_arg3))
abbrev aBk : Bias := readBias (m ((c.tc : Thread nD τ).loc main_arg4))
abbrev aWv : Wt := readWt (m ((c.tc : Thread nD τ).loc main_arg5))
abbrev aBv : Bias := readBias (m ((c.tc : Thread nD τ).loc main_arg6))
abbrev aWo : Wt := readWt (m ((c.tc : Thread nD τ).loc main_arg7))
abbrev aBo : Bias := readBias (m ((c.tc : Thread nD τ).loc main_arg8))

/-- Row `r` of `a` against column `n` of `w`, plus the one row `β` at `n`. -/
def affine {R K N : Nat} (a : (⟨2, ![R, K]⟩ : Shape).Idx → EReal) (w : (⟨2, ![K, N]⟩ : Shape).Idx → EReal)
    (β : (⟨2, ![1, N]⟩ : Shape).Idx → EReal) (r : Fin R) (n : Fin N) : EReal :=
  (∑ k : Fin K, a (ix2 r k) * w (ix2 k n)) + β (ix2 (0 : Fin 1) n)

theorem proj_apply (x : Act) (w : Wt) (β : Bias) (b : Fin 4) (l : Fin 2048) (e : Fin 1024) :
    proj x w β b l e = (∑ d : Fin 1024, x b l d * w e d) + β e := rfl

/-- What the first region is assumed to leave: rows of its first array times its second, plus its third's one row. -/
abbrev Region0Value : Prop :=
  ∀ (V : (c : Dev nD) → (b : Ref sig .tc) → Buf (Elt Ideal) ((c : Thread nD τ).loc b)) (c : Dev nD) (r : Fin 8192) (n : Fin 3072),
    (dat0 (F := Ideal) V c).arrAt 3 cfg0.N (ix2 r n)
      = affine (R := 8192) (K := 1024) (N := 3072) (V c main_v0) (V c main_v5) (V c main_v7) r n

/-- What the second region is assumed to leave: at feature `64 h + d`, head `h`'s attention of the three column slabs
    of its input array. -/
abbrev Region1Value : Prop :=
  ∀ (V : (c : Dev nD) → (b : Ref sig .tc) → Buf (Elt Ideal) ((c : Thread nD τ).loc b)) (c : Dev nD) (b : Fin 4) (l : Fin 2048)
    (h : Fin 16) (d : Fin 64),
    (dat1 (F := Ideal) V c).arrAt 3 cfg1.N (ix3 b l (col h d))
      = attn (fun b' l' e => (V c main_v9 : S4x2048x3072.Idx → EReal) (ix3 b' l' (⟨e.val, by omega⟩ : Fin 3072)))
          (fun b' l' e => (V c main_v9 : S4x2048x3072.Idx → EReal) (ix3 b' l' (⟨1024 + e.val, by omega⟩ : Fin 3072)))
          (fun b' l' e => (V c main_v9 : S4x2048x3072.Idx → EReal) (ix3 b' l' (⟨2048 + e.val, by omega⟩ : Fin 3072))) b l h d

/-- What the third region is assumed to leave: the same form as the first's. -/
abbrev Region2Value : Prop :=
  ∀ (V : (c : Dev nD) → (b : Ref sig .tc) → Buf (Elt Ideal) ((c : Thread nD τ).loc b)) (c : Dev nD) (r : Fin 8192) (f : Fin 1024),
    (dat2 (F := Ideal) V c).arrAt 3 cfg2.N (ix2 r f)
      = affine (R := 8192) (K := 1024) (N := 1024) (V c main_v11) (V c main_v13) (V c main_v14) r f

/-- The first region's output, column `n` of row `2048 b + l`, given what the fused weight and bias are at `n`. -/
theorem proj_value (R0 : Region0Value) (b : Fin 4) (l : Fin 2048) (n : Fin 3072) (w : Wt) (β : Bias) (e : Fin 1024)
    (hw : ∀ k : Fin 1024, (W1 m c (Proc.devRef .tc main_v5) : S1024x3072.Idx → EReal) (ix2 k n) = w e k)
    (hβ : (W1 m c (Proc.devRef .tc main_v7) : S1x3072.Idx → EReal) (ix2 (0 : Fin 1) n) = β e) :
    (W3 m c (Proc.devRef .tc main_v9) : S4x2048x3072.Idx → EReal) (ix3 b l n) = proj (aX m c) w β b l e := by
  have h8 : (W2 m c (Proc.devRef .tc main_v8) : S8192x3072.Idx → EReal) = (dat0 (U1 m) c).arrAt 3 cfg0.N := W2_arr m c 3
  refine (h1_qkv (W2 m c) b l n).trans ((congrFun h8 _).trans ((R0 (U1 m) c (row b l) n).trans ?_))
  rw [proj_apply]
  unfold affine
  refine congrArg₂ (fun x y : EReal => x + y) (Finset.sum_congr rfl fun k _ => ?_) hβ
  exact congrArg₂ (fun x y : EReal => x * y) (h0_x (W0 m c) b l k) (hw k)

/-- The first region's three column slabs, unflattened, are the three linear layers of the input. -/
theorem q_value (R0 : Region0Value) :
    (fun b' l' (e : Fin 1024) => (U3 m c main_v9 : S4x2048x3072.Idx → EReal) (ix3 b' l' (⟨e.val, by omega⟩ : Fin 3072)))
      = proj (aX m c) (aWq m c) (aBq m c) :=
  funext fun b' => funext fun l' => funext fun e =>
    proj_value m c R0 b' l' _ (aWq m c) (aBq m c) e (fun k => h0_wq (W0 m c) k e) (h0_bq (W0 m c) e)
theorem k_value (R0 : Region0Value) :
    (fun b' l' (e : Fin 1024) => (U3 m c main_v9 : S4x2048x3072.Idx → EReal) (ix3 b' l' (⟨1024 + e.val, by omega⟩ : Fin 3072)))
      = proj (aX m c) (aWk m c) (aBk m c) :=
  funext fun b' => funext fun l' => funext fun e =>
    proj_value m c R0 b' l' _ (aWk m c) (aBk m c) e (fun k => h0_wk (W0 m c) k e) (h0_bk (W0 m c) e)
theorem v_value (R0 : Region0Value) :
    (fun b' l' (e : Fin 1024) => (U3 m c main_v9 : S4x2048x3072.Idx → EReal) (ix3 b' l' (⟨2048 + e.val, by omega⟩ : Fin 3072)))
      = proj (aX m c) (aWv m c) (aBv m c) :=
  funext fun b' => funext fun l' => funext fun e =>
    proj_value m c R0 b' l' _ (aWv m c) (aBv m c) e (fun k => h0_wv (W0 m c) k e) (h0_bv (W0 m c) e)

/-- The second region's output is the heads' attention of the three layers, side by side. -/
theorem attn_value (R0 : Region0Value) (R1 : Region1Value) (b : Fin 4) (l : Fin 2048) (e : Fin 1024) :
    (W4 m c (Proc.devRef .tc main_v10) : S4x2048x1024.Idx → EReal) (ix3 b l e)
      = merged (proj (aX m c) (aWq m c) (aBq m c)) (proj (aX m c) (aWk m c) (aBk m c)) (proj (aX m c) (aWv m c) (aBv m c)) b l e := by
  have h10 : (W4 m c (Proc.devRef .tc main_v10) : S4x2048x1024.Idx → EReal) = (dat1 (U3 m) c).arrAt 3 cfg1.N := W4_out m c
  have he : ix3 b l e = ix3 b l (col (headOf e) (laneOf e)) := by rw [col_headOf_laneOf]
  refine (congrFun h10 _).trans ((congrArg _ he).trans ((R1 (U3 m) c b l (headOf e) (laneOf e)).trans ?_))
  exact congrFun (congrFun (congrFun (congrFun
    (congr (congr (congrArg attn (q_value m c R0)) (k_value m c R0)) (v_value m c R0)) b) l) (headOf e)) (laneOf e)

/-- The output weight and bias reach the third region as launched: nothing before it writes an argument. -/
theorem W4_main_arg7 : W4 m c (Proc.devRef .tc main_arg7) = m ((c.tc : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c.tc : Thread nD τ).loc main_arg7) := rfl
theorem W4_main_arg8 : W4 m c (Proc.devRef .tc main_arg8) = m ((c.tc : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c.tc : Thread nD τ).loc main_arg8) := rfl

/-- The program's result at (b, l, f) is the specification of the nine arguments. -/
theorem kernel_value_at (R0 : Region0Value) (R1 : Region1Value) (R2 : Region2Value) (b : Fin 4) (l : Fin 2048) (f : Fin 1024) :
    (W7 m c (Proc.devRef .tc main_v16) : S4x2048x1024.Idx → EReal) (ix3 b l f)
      = G (aX m c) (aWq m c) (aBq m c) (aWk m c) (aBk m c) (aWv m c) (aBv m c) (aWo m c) (aBo m c) b l f := by
  have h15 : (W6 m c (Proc.devRef .tc main_v15) : S8192x1024.Idx → EReal) = (dat2 (U5 m) c).arrAt 3 cfg2.N := W6_arr m c 3
  refine (h3_out (W6 m c) b l f).trans ((congrFun h15 _).trans ((R2 (U5 m) c (row b l) f).trans ?_))
  show affine _ _ _ (row b l) f = proj (merged (proj (aX m c) (aWq m c) (aBq m c)) (proj (aX m c) (aWk m c) (aBk m c))
    (proj (aX m c) (aWv m c) (aBv m c))) (aWo m c) (aBo m c) b l f
  rw [proj_apply]
  unfold affine
  refine congrArg₂ (fun x y : EReal => x + y) (Finset.sum_congr rfl fun e _ => ?_) ?_
  · refine congrArg₂ (fun x y : EReal => x * y) ((h2_a (W4 m c) b l e).trans (attn_value m c R0 R1 b l e)) ?_
    exact (h2_wo (W4 m c) e f).trans (congrFun (W4_main_arg7 m c) _)
  · exact (h2_bo (W4 m c) f).trans (congrFun (W4_main_arg8 m c) _)

/-- THE KERNEL'S VALUE: given the three regions' values, the program's result array ends at the specification of its
    nine argument arrays. -/
theorem kernel_value (R0 : Region0Value) (R1 : Region1Value) (R2 : Region2Value) :
    W7 (F := Ideal) m c (Proc.devRef .tc main_v16)
      = actArray (G (readAct (m ((c.tc : Thread nD τ).loc main_arg0))) (readWt (m ((c.tc : Thread nD τ).loc main_arg1)))
          (readBias (m ((c.tc : Thread nD τ).loc main_arg2))) (readWt (m ((c.tc : Thread nD τ).loc main_arg3)))
          (readBias (m ((c.tc : Thread nD τ).loc main_arg4))) (readWt (m ((c.tc : Thread nD τ).loc main_arg5)))
          (readBias (m ((c.tc : Thread nD τ).loc main_arg6))) (readWt (m ((c.tc : Thread nD τ).loc main_arg7)))
          (readBias (m ((c.tc : Thread nD τ).loc main_arg8)))) := by
  funext i
  obtain ⟨b, l, f, rfl⟩ : ∃ (b : Fin 4) (l : Fin 2048) (f : Fin 1024), i = ix3 b l f := ⟨i 0, i 1, i 2, eq_ix3 i⟩
  exact (kernel_value_at m c R0 R1 R2 b l f).trans (actArray_ix3 _ b l f).symm

end Compose

end Cert.Attn.Kernel

end
-- ==== Proof.lean ====
/-
  Multi-head self-attention in three kernel regions against its jnp reference, over the extended reals.

  The program: a fused projection  [q | k | v] = x · [wqᵀ | wkᵀ | wvᵀ] + [bq | bk | bv]  (one linear layer on 8192 rows);
  attention per batch and per tile of 512 queries, head by head — scores q_h · k_hᵀ scaled by 1/4, each row shifted by
  its maximum, exponentiated, divided by its sum, and applied to v_h —, each head written to its 64 columns; and the
  output projection  out = o · woᵀ + bo.  The reference computes the three projections, splits the heads, applies the
  same scaled scores and the same softmax, merges the heads and projects.  At the exact instance a change of float
  format is the identity and a matrix product into a zero accumulator is the plain sum, so both programs compute, entry
  by entry, the same sums, the same maximum, the same exponentials and the same quotients of the same arguments: one
  function `G` of the nine argument arrays (Proof/Spec.lean).  No law beyond re-indexing finite sums is used, so the
  inputs' finiteness is never opened.

  The frames: @main is seven segments, host stretches and the three regions in turn (Proof/Run.lean).  Each region's
  body is run once at a symbolic grid point (Proof/Region0.lean, Region1Body.lean, Region2.lean); the attention
  region's three input windows are blocks of one array, which its record holds at three shares that make up the whole
  (Proof/Region1Shares.lean).  The run ends with every unscoped buffer at the contents of the last segment boundary; no
  segment writes an argument.  The word-level program is the same text, and every statement is generic in the float
  instance, so its frame is the same proof (Proof/Word/).  The idealization rewrote nothing, so `preserves` is trivial.

  The values: each region's output array is one function of its input arrays (Proof/RegionValueLinear.lean,
  Proof/Region1Value.lean, from the bodies' values at an entry, Proof/BodyValueLinear.lean, BodyValueAttention.lean);
  chained through the host reshapes, transposes and concatenations they give `G` (Proof/KernelValue.lean); the
  reference's run is `G` operation by operation (Proof/RefSpec.lean).
-/
import proofs.«107256_j17025250361728_2_alg».proof.Defs
import proofs.«107256_j17025250361728_2_alg».proof.Proof.Gen.Kernel
import proofs.«107256_j17025250361728_2_alg».proof.Proof.Gen.Kernel.Skeleton
import proofs.«107256_j17025250361728_2_alg».proof.Proof.Gen.Kernel.Launch
import proofs.«107256_j17025250361728_2_alg».proof.Proof.Gen.Kernel.Regions
import proofs.«107256_j17025250361728_2_alg».proof.Proof.Gen.Kernel.Points
import proofs.«107256_j17025250361728_2_alg».proof.Proof.Gen.KernelIdeal
import proofs.«107256_j17025250361728_2_alg».proof.Proof.Gen.KernelIdeal.Skeleton
import proofs.«107256_j17025250361728_2_alg».proof.Proof.Gen.KernelIdeal.Launch
import proofs.«107256_j17025250361728_2_alg».proof.Proof.Gen.KernelIdeal.Regions
import proofs.«107256_j17025250361728_2_alg».proof.Proof.Gen.KernelIdeal.Points
import proofs.«107256_j17025250361728_2_alg».proof.Proof.Gen.ReferenceIdeal
import proofs.«107256_j17025250361728_2_alg».proof.Proof.Gen.ReferenceIdeal.Run
import proofs.«107256_j17025250361728_2_alg».proof.Proof.Gen.ReferenceIdeal.Read
import proofs.«107256_j17025250361728_2_alg».proof.Proof.Gen.Pre_finite_inputs
import proofs.«107256_j17025250361728_2_alg».proof.Proof.Run
import proofs.«107256_j17025250361728_2_alg».proof.Proof.Word.Run
import proofs.«107256_j17025250361728_2_alg».proof.Proof.RefSpec
import proofs.«107256_j17025250361728_2_alg».proof.Proof.RegionValueLinear
import proofs.«107256_j17025250361728_2_alg».proof.Proof.Region1Value
import proofs.«107256_j17025250361728_2_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_p : Cert.frame_Kernel := fun m ρ _ => Cert.Kernel.Gen.frame_all m ρ
/-- So does the idealized program. -/
theorem frame_pi : Cert.frame_KernelIdeal := fun m ρ _ => Cert.KernelIdeal.Gen.frame_all m ρ
/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

open Cert.Attn Idealize.ShloMosaic.ValueIdx

/-- At the exact instance the kernel's result array ends at `G` of its arguments (the run of Proof/Run.lean, its last
    boundary's result buffer read by Proof/KernelValue.lean from the three regions' array values) and the reference's
    at `G` of its own (its generated run, read by Proof/RefSpec.lean); the arguments agree, so the results are equal. -/
theorem algebraic : Cert.algebraic_KernelIdeal_ReferenceIdeal := by
  intro m ρ m' ρ' _ hagree
  refine ⟨fun c => actArray (G (readAct (m ((c.tc : Thread Cert.KernelIdeal.nD Cert.KernelIdeal.τ).loc Cert.KernelIdeal.main_arg0))) (readWt (m ((c.tc : Thread Cert.KernelIdeal.nD Cert.KernelIdeal.τ).loc Cert.KernelIdeal.main_arg1))) (readBias (m ((c.tc : Thread Cert.KernelIdeal.nD Cert.KernelIdeal.τ).loc Cert.KernelIdeal.main_arg2))) (readWt (m ((c.tc : Thread Cert.KernelIdeal.nD Cert.KernelIdeal.τ).loc Cert.KernelIdeal.main_arg3))) (readBias (m ((c.tc : Thread Cert.KernelIdeal.nD Cert.KernelIdeal.τ).loc Cert.KernelIdeal.main_arg4))) (readWt (m ((c.tc : Thread Cert.KernelIdeal.nD Cert.KernelIdeal.τ).loc Cert.KernelIdeal.main_arg5))) (readBias (m ((c.tc : Thread Cert.KernelIdeal.nD Cert.KernelIdeal.τ).loc Cert.KernelIdeal.main_arg6))) (readWt (m ((c.tc : Thread Cert.KernelIdeal.nD Cert.KernelIdeal.τ).loc Cert.KernelIdeal.main_arg7))) (readBias (m ((c.tc : Thread Cert.KernelIdeal.nD Cert.KernelIdeal.τ).loc Cert.KernelIdeal.main_arg8)))), ?_, ?_⟩
  · refine (θ_run Cert.KernelIdeal.defs _ _).mono (fun r h c => ⟨?_, ?_, ?_, ?_, ?_, ?_, ?_, ?_, ?_, ?_⟩)
      (Cert.KernelIdeal.Gen.run_all (F := Ideal) m ρ)
    · exact (h c _ (Cert.KernelIdeal.Gen.mem_uc Cert.KernelIdeal.main_v16 (by decide))).trans
        (Cert.Attn.Kernel.kernel_value m c
          (fun V c r n => (Cert.Attn.Body.region0_value V c r n).trans (Cert.Attn.Body.linQKV_ix2 _ _ _ r n))
          (fun V c b l hd d => Cert.Attn.Body.region1_value V c b l hd d)
          (fun V c r f => (Cert.Attn.Body.region2_value V c r f).trans (Cert.Attn.Body.linOut_ix2 _ _ _ r f)))
    · exact (h c _ (Cert.KernelIdeal.Gen.mem_uc Cert.KernelIdeal.main_arg0 (by decide))).trans (Cert.KernelIdeal.Gen.W7_main_arg0 m c)
    · exact (h c _ (Cert.KernelIdeal.Gen.mem_uc Cert.KernelIdeal.main_arg1 (by decide))).trans (Cert.KernelIdeal.Gen.W7_main_arg1 m c)
    · exact (h c _ (Cert.KernelIdeal.Gen.mem_uc Cert.KernelIdeal.main_arg2 (by decide))).trans (Cert.KernelIdeal.Gen.W7_main_arg2 m c)
    · exact (h c _ (Cert.KernelIdeal.Gen.mem_uc Cert.KernelIdeal.main_arg3 (by decide))).trans (Cert.KernelIdeal.Gen.W7_main_arg3 m c)
    · exact (h c _ (Cert.KernelIdeal.Gen.mem_uc Cert.KernelIdeal.main_arg4 (by decide))).trans (Cert.KernelIdeal.Gen.W7_main_arg4 m c)
    · exact (h c _ (Cert.KernelIdeal.Gen.mem_uc Cert.KernelIdeal.main_arg5 (by decide))).trans (Cert.KernelIdeal.Gen.W7_main_arg5 m c)
    · exact (h c _ (Cert.KernelIdeal.Gen.mem_uc Cert.KernelIdeal.main_arg6 (by decide))).trans (Cert.KernelIdeal.Gen.W7_main_arg6 m c)
    · exact (h c _ (Cert.KernelIdeal.Gen.mem_uc Cert.KernelIdeal.main_arg7 (by decide))).trans (Cert.KernelIdeal.Gen.W7_main_arg7 m c)
    · exact (h c _ (Cert.KernelIdeal.Gen.mem_uc Cert.KernelIdeal.main_arg8 (by decide))).trans (Cert.KernelIdeal.Gen.W7_main_arg8 m c)
  · refine (θ_run Cert.ReferenceIdeal.defs _ _).mono (fun _ h c => ⟨(h c).1.trans ?_, (h c).2⟩)
      (Cert.ReferenceIdeal.Value.run (F := Ideal) m' ρ')
    rw [Cert.Attn.Ref.ref_eq_spec, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
